-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S7x256 : Shape := ⟨2, ![7, 256]⟩
abbrev S128x256 : Shape := ⟨2, ![128, 256]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S7x256 : S_.BroadcastsInDim S7x256 (![] : Fin 0 → Fin S7x256.rank)
  reducesTo_S7x256_S_d0_1 : S7x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg1 main_v19
  let main_c_7 : IVec S_ 32 := constantI S_ 32 7#32
  let main_v21 : IVec S8192 32 := broadcastInDim S8192 ![] bcast_S_S8192 main_c_7
  let main_v22 : IVec S8192 1 := cmpi .slt main_arg1 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : FVec F S8192x128 .f32) (main_arg1 : IVec S8192 32) (main_arg2 : FVec F S7x256 .f32) (main_arg3 : FVec F S128x256 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S7x256 .f32 := Host.absf main_arg2
  let main_cst_0 : FVec F S_ .f32 := constant S_ .f32 0x7F800000#32
  let main_v5 : FVec F S7x256 .f32 := broadcastInDim S7x256 ![] bcast_S_S7x256 main_cst_0
  let main_v6 : IVec S7x256 1 := cmpf .olt main_v4 main_v5
  let main_c_1 : IVec S_ 1 := constantI S_ 1 1#1
  let main_v7 : IVec S_ 1 := (fun x v => Host.reduce IntOp.andi x v reducesTo_S7x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192 : Shape := ⟨1, ![8192]⟩
abbrev S7x256 : Shape := ⟨2, ![7, 256]⟩
abbrev S128x256 : Shape := ⟨2, ![128, 256]⟩
abbrev S128 : Shape := ⟨1, ![128]⟩
abbrev S256x128 : Shape := ⟨2, ![256, 128]⟩
abbrev S7x128 : Shape := ⟨2, ![7, 128]⟩
abbrev S1x128 : Shape := ⟨2, ![1, 128]⟩
abbrev S7 : Shape := ⟨1, ![7]⟩
abbrev S8199x128 : Shape := ⟨2, ![8199, 128]⟩
abbrev S8199 : Shape := ⟨1, ![8199]⟩
abbrev S_ : Shape := ⟨0, ![]⟩
abbrev S8199x1 : Shape := ⟨2, ![8199, 1]⟩
abbrev S121x128 : Shape := ⟨2, ![121, 128]⟩
abbrev S8320x128 : Shape := ⟨2, ![8320, 128]⟩
abbrev S121 : Shape := ⟨1, ![121]⟩
abbrev S8320 : Shape := ⟨1, ![8320]⟩
abbrev S1x8320 : Shape := ⟨2, ![1, 8320]⟩
abbrev S8192x1 : Shape := ⟨2, ![8192, 1]⟩
abbrev S3x8192 : Shape := ⟨2, ![3, 8192]⟩
abbrev S128x128 : Shape := ⟨2, ![128, 128]⟩
abbrev S128x1 : Shape := ⟨2, ![128, 1]⟩
abbrev S3x128 : Shape := ⟨2, ![3, 128]⟩
abbrev S128x8320 : Shape := ⟨2, ![128, 8320]⟩
abbrev S128x3 : Shape := ⟨2, ![128, 3]⟩
abbrev S1x8192 : Shape := ⟨2, ![1, 8192]⟩

abbrev nBuf : Space → Nat
  | .hbm => 63
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S7x256, .f32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S7x128, .f32⟩
  | .hbm, ⟨7, _⟩ => ⟨S1x128, .f32⟩
  | .hbm, ⟨8, _⟩ => ⟨S7x128, .f32⟩
  | .hbm, ⟨9, _⟩ => ⟨S7x128, .f32⟩
  | .hbm, ⟨10, _⟩ => ⟨S7, .i32⟩
  | .hbm, ⟨11, _⟩ => ⟨S8199x128, .f32⟩
  | .hbm, ⟨12, _⟩ => ⟨S8199, .i32⟩
  | .hbm, ⟨13, _⟩ => ⟨S8199x128, .f32⟩
  | .hbm, ⟨14, _⟩ => ⟨S_, .f32⟩
  | .hbm, ⟨15, _⟩ => ⟨S8199, .f32⟩
  | .hbm, ⟨16, _⟩ => ⟨S8199, .f32⟩
  | .hbm, ⟨17, _⟩ => ⟨S_, .f32⟩
  | .hbm, ⟨18, _⟩ => ⟨S8199, .f32⟩
  | .hbm, ⟨19, _⟩ => ⟨S8199, .f32⟩
  | .hbm, ⟨20, _⟩ => ⟨S8199x1, .f32⟩
  | .hbm, ⟨21, _⟩ => ⟨S8199x128, .f32⟩
  | .hbm, ⟨22, _⟩ => ⟨S8199x128, .f32⟩
  | .hbm, ⟨23, _⟩ => ⟨S_, .f32⟩
  | .hbm, ⟨24, _⟩ => ⟨S121x128, .f32⟩
  | .hbm, ⟨25, _⟩ => ⟨S8320x128, .f32⟩
  | .hbm, ⟨26, _⟩ => ⟨S_, .i32⟩
  | .hbm, ⟨27, _⟩ => ⟨S121, .i32⟩
  | .hbm, ⟨28, _⟩ => ⟨S8320, .i32⟩
  | .hbm, ⟨29, _⟩ => ⟨S8320x128, .bf16⟩
  | .hbm, ⟨30, _⟩ => ⟨S1x8320, .i32⟩
  | .hbm, ⟨31, _⟩ => ⟨S8192x128, .bf16⟩
  | .hbm, ⟨32, _⟩ => ⟨S8192x1, .i32⟩
  | .hbm, ⟨33, _⟩ => ⟨S3x8192, .f32⟩
  | .hbm, ⟨34, _⟩ => ⟨S1x8192, .f32⟩
  | .hbm, ⟨35, _⟩ => ⟨S8192, .f32⟩
  | .hbm, ⟨36, _⟩ => ⟨S1x8192, .f32⟩
  | .hbm, ⟨37, _⟩ => ⟨S8192, .f32⟩
  | .hbm, ⟨38, _⟩ => ⟨S1x8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .i1⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x1, .i32⟩
  | .local _ .vmem, ⟨3, _⟩ => ⟨S128x1, .i32⟩
  | .local _ .vmem, ⟨4, _⟩ => ⟨S8320x128, .bf16⟩
  | .local _ .vmem, ⟨5, _⟩ => ⟨S1x8320, .i32⟩
  | .local _ .vmem, ⟨6, _⟩ => ⟨S3x128, .f32⟩
  | .local _ .vmem, ⟨7, _⟩ => ⟨S3x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8320x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8320 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x256_S256x128_1_0 : S128x256.Transposes [1, 0] S256x128
  bcast_S128_S1x128_1 : S128.BroadcastsInDim S1x128 (![1] : Fin 1 → Fin S1x128.rank)
  bcast_S1x128_S7x128_0_1 : S1x128.BroadcastsInDim S7x128 (![0, 1] : Fin 2 → Fin S7x128.rank)
  concatenates_S8192x128_S7x128_S8199x128_d0 : Shape.Concatenates [S8192x128, S7x128] S8199x128 0
  concatenates_S8192_S7_S8199_d0 : Shape.Concatenates [S8192, S7] S8199 0
  reducesTo_S8199x128_S8199_d1 : S8199x128.ReducesTo [1] S8199
  h_S_ : 0 < S_.numel
  bcast_S_S8199 : S_.BroadcastsInDim S8199 (![] : Fin 0 → Fin S8199.rank)
  bcast_S8199_S8199x1_0 : S8199.BroadcastsInDim S8199x1 (![0] : Fin 1 → Fin S8199x1.rank)
  bcast_S8199x1_S8199x128_0_1 : S8199x1.BroadcastsInDim S8199x128 (![0, 1] : Fin 2 → Fin S8199x128.rank)
  bcast_S_S121x128 : S_.BroadcastsInDim S121x128 (![] : Fin 0 → Fin S121x128.rank)
  concatenates_S8199x128_S121x128_S8320x128_d0 : Shape.Concatenates [S8199x128, S121x128] S8320x128 0
  bcast_S_S121 : S_.BroadcastsInDim S121 (![] : Fin 0 → Fin S121.rank)
  concatenates_S8199_S121_S8320_d0 : Shape.Concatenates [S8199, S121] S8320 0
  bitsLt_bf16_f32 : FTy.bits .bf16 < FTy.bits .f32
  shapeCasts_S8320_S1x8320 : S8320.ShapeCasts S1x8320
  slices_S8320x128_S8192x128_0_0 : S8320x128.Slices ![0, 0] S8192x128
  shapeCasts_S8192_S8192x1 : S8192.ShapeCasts S8192x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8320x128_S8320x128_0_0 : ∀ a, (![0, 0] : Fin 2 → Nat) a + S8320x128.size a ≤ S8320x128.size a
  h_S8320x128 : 0 < S8320x128.numel
  shapeCasts_S8320x128_S8320x128 : S8320x128.ShapeCasts S8320x128
  iota_S128x8320_d0_w32 : S128x8320.Iotas .tc 32 [0]
  iota_S128x8320_d1_w32 : S128x8320.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8320_S1x8320_0_0 : ∀ a, (![0, 0] : Fin 2 → Nat) a + S1x8320.size a ≤ S1x8320.size a
  h_S1x8320 : 0 < S1x8320.numel
  shapeCasts_S1x8320_S1x8320 : S1x8320.ShapeCasts S1x8320
  broadcasts_S128x1_S128x8320 : S128x1.Broadcasts S128x8320
  broadcasts_S1x8320_S128x8320 : S1x8320.Broadcasts S128x8320
  natLt_1_32 : 1 < 32
  reduces_S128x8320_S128 : S128x8320.Reduces [1] S128
  shapeCasts_S128_S128x1 : S128.ShapeCasts S128x1
  concatenates_S128x1_S128x1_S128x1_S128x3_d1 : Shape.Concatenates [S128x1, S128x1, S128x1] S128x3 1
  transposes_S128x3_p1_0_S3x128 : S128x3.Transposes [1, 0] S3x128
  inb_S3x128_S3x128_0_0 : ∀ a, (![0, 0] : Fin 2 → Nat) a + S3x128.size a ≤ S3x128.size a
  h_S3x128 : 0 < S3x128.numel
  slices_S3x8192_S1x8192_0_0 : S3x8192.Slices ![0, 0] S1x8192
  shapeCasts_S1x8192_S8192 : S1x8192.ShapeCasts S8192
  slices_S3x8192_S1x8192_1_0 : S3x8192.Slices ![1, 0] S1x8192
  slices_S3x8192_S1x8192_2_0 : S3x8192.Slices ![2, 0] S1x8192
  bcast_S_S8192 : S_.BroadcastsInDim S8192 (![] : Fin 0 → Fin S8192.rank)
  reducesTo_S8192_S_d0 : S8192.ReducesTo [0] S_
  dot_S7x256_S256x128_S7x128_1_0_0_1_n_n_wf : DotDims.WF S7x256 S256x128 S7x128 [1] [0] [0] [1] [] []
  dot_S128x128_S8320x128_S128x8320_1_1_0_0_n_n_wf : DotDims.WF S128x128 S8320x128 S128x8320 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8320x128.size a ≤ S8320x128.size a
  hwx0_2 : ∀ i : grid0.Coords, EltTy.bits .bf16 = 32 ∨ (Rect.block (s := S8320x128) S8320x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8320.size a ≤ S1x8320.size a
  hwx0_3 : ∀ i : grid0.Coords, EltTy.bits .i32 = 32 ∨ (Rect.block (s := S1x8320) S1x8320.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x8192.size a
  hwx0_4 : ∀ i : grid0.Coords, EltTy.bits .f32 = 32 ∨ (Rect.block (s := S3x8192) S3x128.size (cc0_transform_4 i) (hinb0_4 i)).WholeWords (EltTy.packing .f32)

variable [Facts₀]

def dot_S7x256_S256x128_S7x128_1_0_0_1_n_n : DotDims S7x256 S256x128 S7x128 where
  lhsContracting := [1]
  rhsContracting := [0]
  lhsNonContracting := [0]
  rhsNonContracting := [1]
  lhsBatch := []
  rhsBatch := []
  wf := dot_S7x256_S256x128_S7x128_1_0_0_1_n_n_wf
def dot_S128x128_S8320x128_S128x8320_1_1_0_0_n_n : DotDims S128x128 S8320x128 S128x8320 where
  lhsContracting := [1]
  rhsContracting := [1]
  lhsNonContracting := [0]
  rhsNonContracting := [0]
  lhsBatch := []
  rhsBatch := []
  wf := dot_S128x128_S8320x128_S128x8320_1_1_0_0_n_n_wf

abbrev win0_0 : Pipeline.Window sig grid0 :=
  Pipeline.Window.ofSpec (Memref.whole main_v22) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8320x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x8320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S3x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S7x256 : Shape := ⟨2, ![7, 256]⟩
abbrev S128x256 : Shape := ⟨2, ![128, 256]⟩
abbrev S128 : Shape := ⟨1, ![128]⟩
abbrev S256x128 : Shape := ⟨2, ![256, 128]⟩
abbrev S7x128 : Shape := ⟨2, ![7, 128]⟩
abbrev S1x128 : Shape := ⟨2, ![1, 128]⟩
abbrev S7 : Shape := ⟨1, ![7]⟩
abbrev S8199x128 : Shape := ⟨2, ![8199, 128]⟩
abbrev S8199 : Shape := ⟨1, ![8199]⟩
abbrev S_ : Shape := ⟨0, ![]⟩
abbrev S8199x1 : Shape := ⟨2, ![8199, 1]⟩
abbrev S128x8199 : Shape := ⟨2, ![128, 8199]⟩
abbrev S8192x8199 : Shape := ⟨2, ![8192, 8199]⟩
abbrev S8192x1 : Shape := ⟨2, ![8192, 1]⟩
abbrev S1x8199 : Shape := ⟨2, ![1, 8199]⟩

abbrev nBuf : Space → Nat
  | .hbm => 100
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S7x256, .f32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S7x128, .f32⟩
  | .hbm, ⟨7, _⟩ => ⟨S1x128, .f32⟩
  | .hbm, ⟨8, _⟩ => ⟨S7x128, .f32⟩
  | .hbm, ⟨9, _⟩ => ⟨S7x128, .f32⟩
  | .hbm, ⟨10, _⟩ => ⟨S7, .i32⟩
  | .hbm, ⟨11, _⟩ => ⟨S8199x128, .f32⟩
  | .hbm, ⟨12, _⟩ => ⟨S8199, .i32⟩
  | .hbm, ⟨13, _⟩ => ⟨S8199x128, .f32⟩
  | .hbm, ⟨14, _⟩ => ⟨S_, .f32⟩
  | .hbm, ⟨15, _⟩ => ⟨S8199, .f32⟩
  | .hbm, ⟨16, _⟩ => ⟨S8199, .f32⟩
  | .hbm, ⟨17, _⟩ => ⟨S_, .f32⟩
  | .hbm, ⟨18, _⟩ => ⟨S8199, .f32⟩
  | .hbm, ⟨19, _⟩ => ⟨S8199, .f32⟩
  | .hbm, ⟨20, _⟩ => ⟨S8199x1, .f32⟩
  | .hbm, ⟨21, _⟩ => ⟨S8199x128, .f32⟩
  | .hbm, ⟨22, _⟩ => ⟨S8199x128, .f32⟩
  | .hbm, ⟨23, _⟩ => ⟨S8192x128, .f32⟩
  | .hbm, ⟨24, _⟩ => ⟨S128x8199, .f32⟩
  | .hbm, ⟨25, _⟩ => ⟨S8192x8199, .f32⟩
  | .hbm, ⟨26, _⟩ => ⟨S_, .f32⟩
  | .hbm, ⟨27, _⟩ => ⟨S8192x8199, .f32⟩
  | .hbm, ⟨28, _⟩ => ⟨S8192x8199, .f32⟩
  | .hbm, ⟨29, _⟩ => ⟨S_, .f32⟩
  | .hbm, ⟨30, _⟩ => ⟨S8192x8199, .f32⟩
  | .hbm, ⟨31, _⟩ => ⟨S8192x8199, .f32⟩
  | .hbm, ⟨32, _⟩ => ⟨S_, .f32⟩
  | .hbm, ⟨33, _⟩ => ⟨S8192x8199, .f32⟩
  | .hbm, ⟨34, _⟩ => ⟨S8192x8199, .f32⟩
  | .hbm, ⟨35, _⟩ => ⟨S8192, .i32⟩
  | .hbm, ⟨36, _⟩ => ⟨S8192x1, .i32⟩
  | .hbm, ⟨37, _⟩ => ⟨S8199, .i32⟩
  | .hbm, ⟨38, _⟩ => ⟨S1x8199, .i32⟩
  | .hbm, ⟨39, _⟩ => ⟨S8192x8199, .i32⟩
  | .hbm, ⟨40, _⟩ => ⟨S8192x8199, .i32⟩
  | .hbm, ⟨41, _⟩ => ⟨S8192x8199, .i1⟩
  | .hbm, ⟨42, _⟩ => ⟨S8192x8199, .f32⟩
  | .hbm, ⟨43, _⟩ => ⟨S_, .f32⟩
  | .hbm, ⟨44, _⟩ => ⟨S8192x8199, .f32⟩
  | .hbm, ⟨45, _⟩ => ⟨S8192x8199, .f32⟩
  | .hbm, ⟨46, _⟩ => ⟨S8192x8199, .f32⟩
  | .hbm, ⟨47, _⟩ => ⟨S_, .f32⟩
  | .hbm, ⟨48, _⟩ => ⟨S8192x8199, .f32⟩
  | .hbm, ⟨49, _⟩ => ⟨S8192x8199, .f32⟩
  | .hbm, ⟨50, _⟩ => ⟨S_, .f32⟩
  | .hbm, ⟨51, _⟩ => ⟨S_, .f32⟩
  | .hbm, ⟨52, _⟩ => ⟨S8192x8199, .f32⟩
  | .hbm, ⟨53, _⟩ => ⟨S8192x8199, .f32⟩
  | .hbm, ⟨54, _⟩ => ⟨S8192x8199, .f32⟩
  | .hbm, ⟨55, _⟩ => ⟨S8192x1, .i32⟩
  | .hbm, ⟨56, _⟩ => ⟨S1x8199, .i32⟩
  | .hbm, ⟨57, _⟩ => ⟨S8192x8199, .i32⟩
  | .hbm, ⟨58, _⟩ => ⟨S8192x8199, .i32⟩
  | .hbm, ⟨59, _⟩ => ⟨S8192x8199, .i1⟩
  | .hbm, ⟨60, _⟩ => ⟨S8192x8199, .f32⟩
  | .hbm, ⟨61, _⟩ => ⟨S_, .f32⟩
  | .hbm, ⟨62, _⟩ => ⟨S8192x8199, .f32⟩
  | .hbm, ⟨63, _⟩ => ⟨S8192x8199, .f32⟩
  | .hbm, ⟨64, _⟩ => ⟨S8192x8199, .f32⟩
  | .hbm, ⟨65, _⟩ => ⟨S8192x8199, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192x8199, .f32⟩
  | .hbm, ⟨70, _⟩ => ⟨S8192x8199, .f32⟩
  | .hbm, ⟨71, _⟩ => ⟨S8192x8199, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8199, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .i1⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S7x128_0_1 : S1x128.BroadcastsInDim S7x128 (![0, 1] : Fin 2 → Fin S7x128.rank)
  concatenates_S8192x128_S7x128_S8199x128_d0 : Shape.Concatenates [S8192x128, S7x128] S8199x128 0
  concatenates_S8192_S7_S8199_d0 : Shape.Concatenates [S8192, S7] S8199 0
  reducesTo_S8199x128_S8199_d1 : S8199x128.ReducesTo [1] S8199
  h_S_ : 0 < S_.numel
  bcast_S_S8199 : S_.BroadcastsInDim S8199 (![] : Fin 0 → Fin S8199.rank)
  bcast_S8199_S8199x1_0 : S8199.BroadcastsInDim S8199x1 (![0] : Fin 1 → Fin S8199x1.rank)
  bcast_S8199x1_S8199x128_0_1 : S8199x1.BroadcastsInDim S8199x128 (![0, 1] : Fin 2 → Fin S8199x128.rank)
  slices_S8199x128_S8192x128_0_0 : S8199x128.Slices ![0, 0] S8192x128
  transposes_S8199x128_S128x8199_1_0 : S8199x128.Transposes [1, 0] S128x8199
  bcast_S_S8192x8199 : S_.BroadcastsInDim S8192x8199 (![] : Fin 0 → Fin S8192x8199.rank)
  bcast_S8192_S8192x1_0 : S8192.BroadcastsInDim S8192x1 (![0] : Fin 1 → Fin S8192x1.rank)
  bcast_S8199_S1x8199_1 : S8199.BroadcastsInDim S1x8199 (![1] : Fin 1 → Fin S1x8199.rank)
  bcast_S8192x1_S8192x8199_0_1 : S8192x1.BroadcastsInDim S8192x8199 (![0, 1] : Fin 2 → Fin S8192x8199.rank)
  bcast_S1x8199_S8192x8199_0_1 : S1x8199.BroadcastsInDim S8192x8199 (![0, 1] : Fin 2 → Fin S8192x8199.rank)
  reducesTo_S8192x8199_S_d0_1 : S8192x8199.ReducesTo [0, 1] S_
  reducesTo_S8192x8199_S8192_d1 : S8192x8199.ReducesTo [1] S8192
  bcast_S_S8192 : S_.BroadcastsInDim S8192 (![] : Fin 0 → Fin S8192.rank)
  reducesTo_S8192_S_d0 : S8192.ReducesTo [0] S_
  dot_S7x256_S256x128_S7x128_1_0_0_1_n_n_wf : DotDims.WF S7x256 S256x128 S7x128 [1] [0] [0] [1] [] []
  dot_S8192x128_S128x8199_S8192x8199_1_0_0_1_n_n_wf : DotDims.WF S8192x128 S128x8199 S8192x8199 [1] [0] [0] [1] [] []

variable [Facts₀]

def dot_S7x256_S256x128_S7x128_1_0_0_1_n_n : DotDims S7x256 S256x128 S7x128 where
  lhsContracting := [1]
  rhsContracting := [0]
  lhsNonContracting := [0]
  rhsNonContracting := [1]
  lhsBatch := []
  rhsBatch := []
  wf := dot_S7x256_S256x128_S7x128_1_0_0_1_n_n_wf
def dot_S8192x128_S128x8199_S8192x8199_1_0_0_1_n_n : DotDims S8192x128 S128x8199 S8192x8199 where
  lhsContracting := [1]
  rhsContracting := [0]
  lhsNonContracting := [0]
  rhsNonContracting := [1]
  lhsBatch := []
  rhsBatch := []
  wf := dot_S8192x128_S128x8199_S8192x8199_1_0_0_1_n_n_wf

class Facts : Prop extends Facts₀ where

variable [Facts]
-- ==== Proof.Spec.lean ====
/- What both programs compute, over the reals, from the normalised rows `r` (8192 sample rows followed by the 7
   class-centre rows, each divided by its length) and the labels (`lab` of the samples, `kl` of all 8199 keys).
   For sample `i` and key `j`: the cosine `cosr`, the indicator `ne` that the key is not the sample itself, the
   indicator `pm` that the two labels agree, the score `((1 + cos)/2 + ε)·ne / T` with `T` the temperature; and per
   sample the three row sums `P` (positives, without the sample itself), `N` (negatives), `C` (number of positives),
   the exponentials shifted by a constant `M` (the reference shifts by the largest score, the kernel by nothing),
   and the ratio `q = P / (P + N)`, from which the loss is computed. -/
import Idealize.ShloMosaic.PureOps.Ideal

noncomputable section

namespace Cert.Spec

open Idealize.ShloMosaic

/-- Sample `i` as a key: the samples are the first 8192 keys. -/
def qrow (i : Fin 8192) : Fin 8199 := ⟨i.val, by omega⟩

/-- The cosine of sample `i` and key `j`: the inner product of their normalised rows. -/
def cosr (r : Fin 8199 → Fin 128 → ℝ) (i : Fin 8192) (j : Fin 8199) : ℝ := ∑ k : Fin 128, r (qrow i) k * r j k

/-- `0` where key `j` is sample `i` itself, `1` elsewhere. -/
def ne (i : Fin 8192) (j : Fin 8199) : ℝ := if i.val = j.val then 0 else 1

/-- `1` where sample `i` and key `j` carry the same label, `0` elsewhere. -/
def pm (lab : Fin 8192 → BitVec 32) (kl : Fin 8199 → BitVec 32) (i : Fin 8192) (j : Fin 8199) : ℝ := if lab i = kl j then 1 else 0

/-- The real both programs' word for `1e-8` denotes. -/
def eps : ℝ := 11258999 / 1125899906842624

/-- The score before the temperature. -/
def base (r : Fin 8199 → Fin 128 → ℝ) (i : Fin 8192) (j : Fin 8199) : ℝ := ((1 + cosr r i j) * (1 / 2) + eps) * ne i j

/-- The score: `base` over the temperature `9395241 / 2^27`. -/
def score (r : Fin 8199 → Fin 128 → ℝ) (i : Fin 8192) (j : Fin 8199) : ℝ := base r i j * (134217728 / 9395241)

/-- The positives' sum of sample `i`, the exponentials shifted by `M`. -/
def P (r : Fin 8199 → Fin 128 → ℝ) (lab : Fin 8192 → BitVec 32) (kl : Fin 8199 → BitVec 32) (M : ℝ) (i : Fin 8192) : ℝ :=
  ∑ j : Fin 8199, Real.exp (score r i j - M) * pm lab kl i j * ne i j

/-- The negatives' sum of sample `i`. -/
def N (r : Fin 8199 → Fin 128 → ℝ) (lab : Fin 8192 → BitVec 32) (kl : Fin 8199 → BitVec 32) (M : ℝ) (i : Fin 8192) : ℝ :=
  ∑ j : Fin 8199, Real.exp (score r i j - M) * (1 - pm lab kl i j)

/-- The number of positives of sample `i`. -/
def C (lab : Fin 8192 → BitVec 32) (kl : Fin 8199 → BitVec 32) (i : Fin 8192) : ℝ :=
  ∑ j : Fin 8199, pm lab kl i j * ne i j

/-- The share of the positives, as the extended real the programs' division gives. -/
def q (r : Fin 8199 → Fin 128 → ℝ) (lab : Fin 8192 → BitVec 32) (kl : Fin 8199 → BitVec 32) (M : ℝ) (i : Fin 8192) : EReal :=
  Ideal.div ((P r lab kl M i : ℝ) : EReal) (((P r lab kl M i : ℝ) : EReal) + ((N r lab kl M i : ℝ) : EReal))

end Cert.Spec

end
-- ==== Proof.Consts.lean ====
/- The float words both programs spell, as the extended reals they denote; and the two named constants of the
   idealized kernel. Stated once here so that no other module unfolds a bit pattern. -/
import Idealize.ShloMosaic.PureOps.Ideal
import Idealize.ShloMosaic.PureOps.IdealRules

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `0.5` denotes `1/2`. -/
theorem ofBits_half : Ideal.ofBits .f32 0x3F000000#32 = ((1 / 2 : ℝ) : EReal) := by
  simp [Ideal.ofBits, Ideal.ieee, -EReal.coe_mul]; norm_num

/-- The word both programs write for `1e-8` denotes the dyadic `11258999 / 2^50`. -/
theorem ofBits_eps : Ideal.ofBits .f32 0x322BCC77#32 = ((11258999 / 1125899906842624 : ℝ) : EReal) := by
  simp [Ideal.ofBits, Ideal.ieee, -EReal.coe_mul]; norm_num

/-- The reference's temperature word (`0.07` rounded) denotes `9395241 / 2^27`. -/
theorem ofBits_temp : Ideal.ofBits .f32 0x3D8F5C29#32 = ((9395241 / 134217728 : ℝ) : EReal) := by
  simp [Ideal.ofBits, Ideal.ieee, -EReal.coe_mul]; norm_num

/-- The pattern of `-inf`, the initial value of the reference's maximum, denotes `⊥`. -/
theorem ofBits_neg_inf : Ideal.ofBits .f32 0xFF800000#32 = ⊥ := by
  simp [Ideal.ofBits, Ideal.ieee]

end Cert.Consts

end
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.KBody.lean ====
/- The kernel body's values, read entry by entry at the extended reals.

   At grid point `t` the body holds the block of 128 sample rows `128 t … 128 t + 127` (their normalised rows `x0`, their
   labels `x1`), all 8320 key rows `x2` (8199 keys and 121 rows of padding) and the keys' labels `x3`. For row `p` of the
   block and key column `j` it forms the cosine (an inner product over the 128 features), the score, its exponential
   (the padded columns get the exponential of the bottom element, which is 0), the label indicator and the
   not-the-sample-itself indicator, and sums the three products along the row. -/
import proofs.«176555_j40235253629101_1_alg».proof.Proof.Gen.KernelIdeal.Skeleton
import proofs.«176555_j40235253629101_1_alg».proof.Proof.Spec
import proofs.«176555_j40235253629101_1_alg».proof.Proof.Consts
import proofs.«176555_j40235253629101_1_alg».proof.Proof.LibColumns
import proofs.«176555_j40235253629101_1_alg».proof.Proof.LibKeepdims
import proofs.«176555_j40235253629101_1_alg».proof.Proof.LibERealSum
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KBody

open Cert.KernelIdeal Cert.KernelIdeal.Gen Idealize.ShloMosaic Idealize.ShloMosaic.ValueIdx

/-! ## The matrix product: entry (p, j) is the inner product of row p of the block and row j of the keys -/

abbrev dd := dot_S128x128_S8320x128_S128x8320_1_1_0_0_n_n

theorem lhs0 (i : S128x8320.Idx) (q : dd.contr.Idx) : (dd.lhsIdx i q 0).val = (i 0).val := by
  unfold DotDims.lhsIdx
  rw [dif_neg (show ¬(0 : Fin S128x128.rank) ∈ dd.lhsBatch by decide), dif_pos (show (0 : Fin S128x128.rank) ∈ dd.lhsNonContracting by decide)]
  rfl
theorem lhs1 (i : S128x8320.Idx) (q : dd.contr.Idx) : (dd.lhsIdx i q 1).val = (q ⟨0, by decide⟩).val :=
  dd.lhsIdx_val_of_single rfl i q
theorem rhs1 (i : S128x8320.Idx) (q : dd.contr.Idx) : (dd.rhsIdx i q 1).val = (q ⟨0, by decide⟩).val :=
  dd.rhsIdx_val_of_single rfl i q
theorem rhs0 (i : S128x8320.Idx) (q : dd.contr.Idx) : (dd.rhsIdx i q 0).val = (i 1).val := by
  unfold DotDims.rhsIdx
  rw [dif_neg (show ¬(0 : Fin S8320x128.rank) ∈ dd.rhsBatch by decide), dif_pos (show (0 : Fin S8320x128.rank) ∈ dd.rhsNonContracting by decide)]
  rfl

/-- The product of the block by the transposed keys, into a zero accumulator, at entry `(p, j)`. -/
theorem mm_apply (y0 : FVec Ideal S128x128 .bf16) (y2 : FVec Ideal S8320x128 .bf16) (p : Fin 128) (j : Fin 8320) :
    matmul dd none y0 y2 (constant S128x8320 .f32 0x00000000#32) (ix2 p j) = ∑ k : Fin 128, y0 (ix2 p k) * y2 (ix2 j k) := by
  simp only [matmul]
  rw [Ideal.matmul_constant_zero_apply, ← Equiv.sum_comp (ValueIdx.contrEquiv1 dd 128 rfl rfl).symm]
  refine Finset.sum_congr rfl fun k _ => ?_
  have hk := ValueIdx.contrEquiv1_symm_val dd 128 rfl rfl k
  have el : dd.lhsIdx (ix2 p j) ((ValueIdx.contrEquiv1 dd 128 rfl rfl).symm k) = ix2 p k := funext fun a => Fin.ext (by
    match a with
    | ⟨0, _⟩ => exact lhs0 _ _
    | ⟨1, _⟩ => exact (lhs1 _ _).trans hk)
  have er : dd.rhsIdx (ix2 p j) ((ValueIdx.contrEquiv1 dd 128 rfl rfl).symm k) = ix2 j k := funext fun a => Fin.ext (by
    match a with
    | ⟨0, _⟩ => exact rhs0 _ _
    | ⟨1, _⟩ => exact (rhs1 _ _).trans hk)
  rw [el, er]

/-! ## The indicator that key column j is not sample row 128 t + p -/

/-- Comparing the words of two numbers below 2^32 compares the numbers. -/
theorem ofNat_eq_iff (a b : ℕ) (ha : a < 4294967296) (hb : b < 4294967296) : BitVec.ofNat 32 a = BitVec.ofNat 32 b ↔ a = b := by
  constructor
  · intro h
    have := congrArg BitVec.toNat h
    simp only [BitVec.toNat_ofNat] at this
    omega
  · intro h; rw [h]

/-- Equality of two words below 2^32, as a choice between two values. -/
theorem cmp_eq_words (a b : ℕ) (ha : a < 4294967296) (hb : b < 4294967296) (A B : EReal) :
    Scalar.select (IntOp.cmpi .eq (BitVec.ofNat 32 a) (BitVec.ofNat 32 b)) A B = if a = b then A else B := by
  by_cases h : a = b
  · subst h
    rw [if_pos rfl]
    show Scalar.select (BitVec.ofBool (BitVec.ofNat 32 a == BitVec.ofNat 32 a)) A B = A
    rw [beq_self_eq_true]
    exact select_one A B
  · rw [if_neg h]
    have hne : (BitVec.ofNat 32 a == BitVec.ofNat 32 b) = false :=
      beq_eq_false_iff_ne.mpr fun e => h ((ofNat_eq_iff a b ha hb).mp e)
    show Scalar.select (BitVec.ofBool (BitVec.ofNat 32 a == BitVec.ofNat 32 b)) A B = B
    rw [hne]
    exact select_zero A B

/-- The row's number `128 t + p` as the body computes it in 32-bit words. -/
theorem words_add (p t : ℕ) (hp : p < 128) (ht : t < 64) :
    BitVec.ofNat 32 p + Scalar.muli (BitVec.ofNat 32 t) 128#32 = BitVec.ofNat 32 (128 * t + p) := by
  apply BitVec.eq_of_toNat_eq
  simp only [Scalar.muli, IntOp.muli, BitVec.toNat_add, BitVec.toNat_mul, BitVec.toNat_ofNat]
  omega

/-- The body's diagonal mask at `(p, j)`, at grid point `t`: `0` where `128 t + p = j`, else `1`. -/
theorem pay2_apply (i : grid0.Coords) (t : ℕ) (ht : (i 0).val = t) (h64 : t < 64) (p : Fin 128) (j : Fin 8320) :
    k0_pay2 (F := Ideal) i (ix2 p j) = if 128 * t + p.val = j.val then (0 : EReal) else ((1 : ℝ) : EReal) := by
  unfold k0_pay2
  show Scalar.select (IntOp.cmpi .eq (iota .tc S128x8320 32 [0] iota_S128x8320_d0_w32 (ix2 p j) + Scalar.muli (BitVec.ofNat 32 (i 0).val) 128#32)
      (iota .tc S128x8320 32 [1] iota_S128x8320_d1_w32 (ix2 p j))) (Ideal.ofBits .f32 0x00000000#32) (Ideal.ofBits .f32 0x3F800000#32) = _
  rw [iota_single_apply, iota_single_apply, Cert.Consts.ofBits_zero, Cert.Consts.ofBits_one, ht]
  show Scalar.select (IntOp.cmpi .eq (BitVec.ofNat 32 p.val + Scalar.muli (BitVec.ofNat 32 t) 128#32) (BitVec.ofNat 32 j.val)) (0 : EReal) ((1 : ℝ) : EReal) = _
  have hp := p.isLt
  have hj := j.isLt
  rw [words_add p.val t hp h64, cmp_eq_words _ _ (by omega) (by omega)]

/-! ## The indicator that the sample's label is the key's -/

theorem lab_mask (a b : BitVec 32) :
    FloatOps.sitofp (F := Ideal) .f32 ((IntOp.cmpi .eq a b).setWidth 32) = if a = b then ((1 : ℝ) : EReal) else ((0 : ℝ) : EReal) := by
  show ((((BitVec.ofBool (a == b)).setWidth 32).toInt : ℝ) : EReal) = _
  by_cases h : a = b
  · subst h
    rw [if_pos rfl, beq_self_eq_true]
    have : ((BitVec.ofBool true).setWidth 32).toInt = 1 := by decide
    rw [this]; norm_num
  · rw [if_neg h, beq_eq_false_iff_ne.mpr h]
    have : ((BitVec.ofBool false).setWidth 32).toInt = 0 := by decide
    rw [this]; norm_num

/-- The body's label mask at `(p, j)`: `1` where the label of row `p` of the block is the label of key `j`, else `0`. -/
theorem pay4_apply (y1 : Vec Ideal S128x1 .i32) (y3 : Vec Ideal S1x8320 .i32) (p : Fin 128) (j : Fin 8320) :
    k0_pay4 (F := Ideal) y1 y3 (ix2 p j)
      = if y1 (ix2 p (0 : Fin 1)) = y3 (ix2 (0 : Fin 1) j) then ((1 : ℝ) : EReal) else ((0 : ℝ) : EReal) := by
  unfold k0_pay4
  show FloatOps.sitofp (F := Ideal) .f32 ((IntOp.cmpi .eq
      (broadcastTo S128x8320 (shapeCast S128x1 y1 shapeCasts_S128x1_S128x1) broadcasts_S128x1_S128x8320 (ix2 p j))
      (broadcastTo S128x8320 (shapeCast S1x8320 y3 shapeCasts_S1x8320_S1x8320) broadcasts_S1x8320_S128x8320 (ix2 p j))).setWidth 32) = _
  rw [shapeCast_self, shapeCast_self, Cert.LibKeepdims.broadcastTo_a1_ab_apply, broadcastTo_1b_ab_apply]
  exact lab_mask _ _

/-! ## The exponential of the score -/

/-- The kernel's temperature factor is the exact reciprocal of the reference's temperature word. -/
theorem inv_temp : Named.named (F := Ideal) Cert.KernelIdeal.κ "inv_temp" (φ := .f32) 0x41649249#32 = ((134217728 / 9395241 : ℝ) : EReal) :=
  IdealRules.named_const.ideal_named_scalar _ _ _ _ rfl

/-- The fill of the padded columns is the bottom element. -/
theorem neg_big : Named.named (F := Ideal) Cert.KernelIdeal.κ "neg_big" (φ := .f32) 0xFF333332#32 = (⊥ : EReal) :=
  IdealRules.named_const.ideal_named_scalar _ _ _ _ rfl

/-- A column number below 8320 compared (signed) with 8199. -/
theorem slt_words (j : ℕ) (hj : j < 8320) (A B : EReal) :
    Scalar.select (IntOp.cmpi .slt (BitVec.ofNat 32 j) 8199#32) A B = if j < 8199 then A else B := by
  have e : (BitVec.ofNat 32 j).toInt = (j : ℤ) := by
    rw [BitVec.toInt_eq_toNat_cond]
    simp only [BitVec.toNat_ofNat]
    have : j % 2 ^ 32 = j := Nat.mod_eq_of_lt (by omega)
    rw [this, if_pos (by omega)]
  have e2 : (8199#32 : BitVec 32).toInt = 8199 := by decide
  show Scalar.select (BitVec.ofBool ((BitVec.ofNat 32 j).slt 8199#32)) A B = _
  unfold BitVec.slt
  rw [e, e2]
  by_cases h : j < 8199
  · rw [if_pos h, decide_eq_true (by exact_mod_cast h)]; exact select_one A B
  · rw [if_neg h, decide_eq_false (by exact_mod_cast h)]; exact select_zero A B

/-- The body's exponential at `(p, j)`: of the score where `j` is a key, `0` on the padding. -/
theorem pay3_apply (i : grid0.Coords) (y0 : Vec Ideal S128x128 .bf16) (y2 : Vec Ideal S8320x128 .bf16) (p : Fin 128) (j : Fin 8320) :
    k0_pay3 (F := Ideal) i y0 y2 (ix2 p j)
      = if j.val < 8199 then
          Ideal.exp (((((1 : ℝ) : EReal) + ∑ k : Fin 128, y0 (ix2 p k) * y2 (ix2 j k)) * ((1 / 2 : ℝ) : EReal)
            + ((11258999 / 1125899906842624 : ℝ) : EReal)) * k0_pay2 (F := Ideal) i (ix2 p j) * ((134217728 / 9395241 : ℝ) : EReal))
        else 0 := by
  unfold k0_pay3
  simp only [Idealize.ShloMosaic.exp, Idealize.ShloMosaic.select, Idealize.ShloMosaic.mulf, Idealize.ShloMosaic.addf,
    Idealize.ShloMosaic.cmpi, Idealize.ShloMosaic.broadcast]
  rw [iota_single_apply, shapeCast_self, shapeCast_self, mm_apply]
  simp only [Ideal.exp_def, Ideal.mulf_def, Ideal.addf_def, Ideal.ofBits_def, Cert.Consts.ofBits_one, Cert.Consts.ofBits_half,
    Cert.Consts.ofBits_eps, inv_temp, neg_big]
  show Ideal.exp (Scalar.select (IntOp.cmpi .slt (BitVec.ofNat 32 j.val) 8199#32) _ _) = _
  rw [slt_words j.val j.isLt]
  by_cases h : j.val < 8199
  · rw [if_pos h, if_pos h]
  · rw [if_neg h, if_neg h]; exact Ideal.exp_bot

/-! ## The three row sums and the block the body stores -/

/-- Three `[128, 1]` columns joined along the column axis: entry `(p, a)` is entry `(p, 0)` of column `a`. -/
theorem concat3_apply (c0 c1 c2 : S128x1.Idx → EReal) (h : Shape.Concatenates [S128x1, S128x1, S128x1] S128x3 1) (p : Fin 128) :
    concatenate S128x3 1 [⟨S128x1, c0⟩, ⟨S128x1, c1⟩, ⟨S128x1, c2⟩] h (ix2 p (0 : Fin 3)) = c0 (ix2 p (0 : Fin 1))
    ∧ concatenate S128x3 1 [⟨S128x1, c0⟩, ⟨S128x1, c1⟩, ⟨S128x1, c2⟩] h (ix2 p (1 : Fin 3)) = c1 (ix2 p (0 : Fin 1))
    ∧ concatenate S128x3 1 [⟨S128x1, c0⟩, ⟨S128x1, c1⟩, ⟨S128x1, c2⟩] h (ix2 p (2 : Fin 3)) = c2 (ix2 p (0 : Fin 1)) := by
  have hi : ∀ (a : Fin 3) (b : Fin 2), b.cast (rfl : (2 : ℕ) = 2) ≠ (1 : Fin 2) →
      ((ix2 p (0 : Fin 1) : S128x1.Idx) b).val = ((ix2 p a : S128x3.Idx) (b.cast rfl)).val := by
    intro a b hb
    match b with
    | ⟨0, _⟩ => rfl
    | ⟨1, _⟩ => exact absurd rfl hb
  refine ⟨?_, ?_, ?_⟩
  · exact concatenate_apply_piece (t := S128x3) (1 : Fin 2) [⟨S128x1, c0⟩, ⟨S128x1, c1⟩, ⟨S128x1, c2⟩] h (ix2 p (0 : Fin 3)) 0
      (by show (0 : ℕ) < 3; decide) S128x1 c0 rfl rfl 0 rfl (ix2 p (0 : Fin 1)) (hi _) rfl
  · exact concatenate_apply_piece (t := S128x3) (1 : Fin 2) [⟨S128x1, c0⟩, ⟨S128x1, c1⟩, ⟨S128x1, c2⟩] h (ix2 p (1 : Fin 3)) 1
      (by show (1 : ℕ) < 3; decide) S128x1 c1 rfl rfl 1 rfl (ix2 p (0 : Fin 1)) (hi _) rfl
  · exact concatenate_apply_piece (t := S128x3) (1 : Fin 2) [⟨S128x1, c0⟩, ⟨S128x1, c1⟩, ⟨S128x1, c2⟩] h (ix2 p (2 : Fin 3)) 2
      (by show (2 : ℕ) < 3; decide) S128x1 c2 rfl rfl 2 rfl (ix2 p (0 : Fin 1)) (hi _) rfl

/-- The block the body stores, at `(a, p)`: row sum `a` (positives, negatives, count) of row `p`. -/
theorem pay1_apply (v15 v27 v36 : FVec Ideal S128x8320 .f32) (v39 : FVec Ideal S128 .f32) (p : Fin 128) :
    k0_pay1 (F := Ideal) v15 v27 v36 v39 (ix2 (0 : Fin 3) p) = v39 (ix1 p)
    ∧ k0_pay1 (F := Ideal) v15 v27 v36 v39 (ix2 (1 : Fin 3) p) = ∑ j : Fin 8320, v27 (ix2 p j) * (((1 : ℝ) : EReal) - v36 (ix2 p j))
    ∧ k0_pay1 (F := Ideal) v15 v27 v36 v39 (ix2 (2 : Fin 3) p) = ∑ j : Fin 8320, v36 (ix2 p j) * v15 (ix2 p j) := by
  unfold k0_pay1
  refine ⟨?_, ?_, ?_⟩
  · refine (transpose_ix2_apply _ transposes_S128x3_p1_0_S3x128 (0 : Fin 3) p).trans ?_
    refine (concat3_apply _ _ _ concatenates_S128x1_S128x1_S128x1_S128x3_d1 p).1.trans ?_
    exact Cert.LibKeepdims.shapeCast_a_a1_apply _ shapeCasts_S128_S128x1 p 0
  · refine (transpose_ix2_apply _ transposes_S128x3_p1_0_S3x128 (1 : Fin 3) p).trans ?_
    refine (concat3_apply _ _ _ concatenates_S128x1_S128x1_S128x1_S128x3_d1 p).2.1.trans ?_
    refine (Cert.LibKeepdims.shapeCast_a_a1_apply _ shapeCasts_S128_S128x1 p 0).trans ?_
    refine (Cert.LibColumns.rowSum_apply _ reduces_S128x8320_S128 (.inl rfl) rfl p).trans ?_
    refine Finset.sum_congr rfl fun j _ => ?_
    show v27 (ix2 p j) * (Ideal.ofBits .f32 0x3F800000#32 - v36 (ix2 p j)) = _
    rw [Cert.Consts.ofBits_one]
  · refine (transpose_ix2_apply _ transposes_S128x3_p1_0_S3x128 (2 : Fin 3) p).trans ?_
    refine (concat3_apply _ _ _ concatenates_S128x1_S128x1_S128x1_S128x3_d1 p).2.2.trans ?_
    refine (Cert.LibKeepdims.shapeCast_a_a1_apply _ shapeCasts_S128_S128x1 p 0).trans ?_
    exact Cert.LibColumns.rowSum_apply _ reduces_S128x8320_S128 (.inl rfl) rfl p

/-- The first row sum as the body computes it before the store. -/
theorem pay5_apply (i : grid0.Coords) (y0 : Vec Ideal S128x128 .bf16) (y2 : Vec Ideal S8320x128 .bf16) (y1 : Vec Ideal S128x1 .i32) (y3 : Vec Ideal S1x8320 .i32) (p : Fin 128) :
    k0_pay5 (F := Ideal) i y0 y2 y1 y3 (ix1 p)
      = ∑ j : Fin 8320, k0_pay3 (F := Ideal) i y0 y2 (ix2 p j) * k0_pay4 (F := Ideal) y1 y3 (ix2 p j) * k0_pay2 (F := Ideal) i (ix2 p j) := by
  unfold k0_pay5
  exact Cert.LibColumns.rowSum_apply _ reduces_S128x8320_S128 (.inl rfl) rfl p

end Cert.KBody

end
-- ==== Proof.KStats.lean ====
/- The array the kernel writes: 3 rows (positives' sum, negatives' sum, positives' count) by 8192 samples.

   Grid point `t` stores the 3 x 128 block of samples `128 t … 128 t + 127`; the 64 blocks tile the array, so after the
   run entry `(a, i)` is what point `i / 128` stored at `(a, i % 128)`. Each input window's block at a point is read off
   its array: rows `128 t …` of the sample rows and of the sample labels, and the whole key matrix and key labels. -/
import proofs.«176555_j40235253629101_1_alg».proof.Proof.KernelIdealFrame
import proofs.«176555_j40235253629101_1_alg».proof.Proof.KBody
import Idealize.ShloMosaic.Lib.Pipeline.Value
import Idealize.ShloMosaic.Lib.ValueIdx

noncomputable section

namespace Cert.KStats

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem lt64 (t : Fin cfg0.N) : t.val < 64 := Nat.lt_of_lt_of_eq t.isLt N_0

/-- Where each window's block sits at point `t`: the sample windows and the output move with the point, the key windows
    stay; and the point's one grid coordinate is its number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ (grid0.coords t (0 : Fin 1)).val = t.val :=
  (by decide +kernel : ∀ t : Fin grid0.N, _)

/-- Sample `128 t + p`. -/
def row (t : Fin cfg0.N) (p : Fin 128) : Fin 8192 := ⟨128 * t.val + p.val, by have := lt64 t; have := p.isLt; omega⟩

/-! ## The input blocks -/

theorem iblk0_apply (c : Dev nD) (t : Fin cfg0.N) (p k : Fin 128) :
    (iblk m c 0 t : Vec Ideal S128x128 .bf16) (ix2 p k) = (V m c main_v22 : S8192x128.Idx → EReal) (ix2 (row t p) k) := by
  obtain ⟨e0, e1, -⟩ := idx_facts t
  unfold iblk
  rw [View.read_apply]
  show V m c main_v22 _ = V m c main_v22 _
  refine congrArg (V m c main_v22) (funext fun a => Fin.ext ?_)
  match a with
  | ⟨0, _⟩ => show win0_0.index t (0 : Fin 2) * 128 + 1 * p.val = 128 * t.val + p.val; rw [e0]; omega
  | ⟨1, _⟩ => show win0_0.index t (1 : Fin 2) * 128 + 1 * k.val = k.val; rw [e1]; omega

theorem iblk1_apply (c : Dev nD) (t : Fin cfg0.N) (p : Fin 128) (u : Fin 1) :
    (iblk m c 1 t : Vec Ideal S128x1 .i32) (ix2 p u) = (V m c main_v23 : S8192x1.Idx → BitVec 32) (ix2 (row t p) u) := by
  obtain ⟨-, -, e0, e1, -⟩ := idx_facts t
  unfold iblk
  rw [View.read_apply]
  show V m c main_v23 _ = V m c main_v23 _
  refine congrArg (V m c main_v23) (funext fun a => Fin.ext ?_)
  match a with
  | ⟨0, _⟩ => show win0_1.index t (0 : Fin 2) * 128 + 1 * p.val = 128 * t.val + p.val; rw [e0]; omega
  | ⟨1, _⟩ => show win0_1.index t (1 : Fin 2) * 1 + 1 * u.val = u.val; rw [e1]; omega

theorem iblk2_apply (c : Dev nD) (t : Fin cfg0.N) (j : Fin 8320) (k : Fin 128) :
    (iblk m c 2 t : Vec Ideal S8320x128 .bf16) (ix2 j k) = (V m c main_v20 : S8320x128.Idx → EReal) (ix2 j k) := by
  obtain ⟨-, -, -, -, e0, e1, -⟩ := idx_facts t
  unfold iblk
  rw [View.read_apply]
  show V m c main_v20 _ = V m c main_v20 _
  refine congrArg (V m c main_v20) (funext fun a => Fin.ext ?_)
  match a with
  | ⟨0, _⟩ => show win0_2.index t (0 : Fin 2) * 8320 + 1 * j.val = j.val; rw [e0]; omega
  | ⟨1, _⟩ => show win0_2.index t (1 : Fin 2) * 128 + 1 * k.val = k.val; rw [e1]; omega

theorem iblk3_apply (c : Dev nD) (t : Fin cfg0.N) (u : Fin 1) (j : Fin 8320) :
    (iblk m c 3 t : Vec Ideal S1x8320 .i32) (ix2 u j) = (V m c main_v21 : S1x8320.Idx → BitVec 32) (ix2 u j) := by
  obtain ⟨-, -, -, -, -, -, e0, e1, -⟩ := idx_facts t
  unfold iblk
  rw [View.read_apply]
  show V m c main_v21 _ = V m c main_v21 _
  refine congrArg (V m c main_v21) (funext fun a => Fin.ext ?_)
  match a with
  | ⟨0, _⟩ => show win0_3.index t (0 : Fin 2) * 1 + 1 * u.val = u.val; rw [e0]; omega
  | ⟨1, _⟩ => show win0_3.index t (1 : Fin 2) * 8320 + 1 * j.val = j.val; rw [e1]; omega

/-! ## What a point stores, and the array after the run -/

/-- The block the body leaves is its stored payload of the four loaded blocks. -/
theorem out_eq (i : grid0.Coords) (x0 : Vec Ideal S128x128 .bf16) (x1 : Vec Ideal S128x1 .i32) (x2 : Vec Ideal S8320x128 .bf16) (x3 : Vec Ideal S1x8320 .i32) :
    out0_4 (F := Ideal) i x0 x1 x2 x3 = k0_pay1 (k0_pay2 (F := Ideal) i) (k0_pay3 i x0 x2) (k0_pay4 x1 x3) (k0_pay5 i x0 x2 x1 x3) := by
  unfold out0_4
  rw [View.canon_unit_zero hz]
  simp only [View.ld_unit_zero (S := S128x128) hz, View.ld_unit_zero (S := S8320x128) hz, View.ld_unit_zero (S := S128x1) hz,
    View.ld_unit_zero (S := S1x8320) hz]

/-- The point whose block holds column `i 1`. -/
def blockOf (i : S3x8192.Idx) : Fin cfg0.N := ⟨(i 1).val / 128, by rw [show cfg0.N = 64 from N_0]; have := idx2_lt1 i; omega⟩

/-- The array after the run, block by block. -/
def G (c : Dev nD) : S3x8192.Idx → EReal := fun i =>
  out0_4 (F := Ideal) (grid0.coords (blockOf i)) (iblk m c 0 (blockOf i)) (iblk m c 1 (blockOf i)) (iblk m c 2 (blockOf i)) (iblk m c 3 (blockOf i))
    (ix2 (⟨(i 0).val, idx2_lt0 i⟩ : Fin 3) (⟨(i 1).val % 128, Nat.mod_lt _ (by norm_num)⟩ : Fin 128))

theorem flushed_eq (c : Dev nD) (t : Fin cfg0.N) :
    (dats m 0 c).flushed 4 t = ((cfg0.win 4).blk t).view.read (Elt Ideal) (G m c) := by
  obtain ⟨-, -, -, -, -, -, -, -, e0, e1, -⟩ := idx_facts t
  show (cfg0.win 4).cut (grid0.coords t) ((dats m 0 c).after 4 t) = _
  rw [after0_4]
  funext y
  rw [View.read_apply]
  show out0_4 (F := Ideal) (grid0.coords t) (iblk m c 0 t) (iblk m c 1 t) (iblk m c 2 t) (iblk m c 3 t) y = G m c (((cfg0.win 4).blk t).view.emb y)
  have he0 : ((((cfg0.win 4).blk t).view.emb y : S3x8192.Idx) 0).val = (y 0).val := by
    show win0_4.index t (0 : Fin 2) * 3 + 1 * (y 0).val = _; rw [e0]; omega
  have he1 : ((((cfg0.win 4).blk t).view.emb y : S3x8192.Idx) 1).val = 128 * t.val + (y 1).val := by
    show win0_4.index t (1 : Fin 2) * 128 + 1 * (y 1).val = _; rw [e1]; omega
  obtain ⟨i, hi⟩ : ∃ i : S3x8192.Idx, i = ((cfg0.win 4).blk t).view.emb y := ⟨_, rfl⟩
  rw [← hi] at he0 he1 ⊢
  have hy1 : (y 1).val < 128 := idx2_lt1 y
  have hb : blockOf i = t := Fin.ext (by show (i 1).val / 128 = t.val; rw [he1]; omega)
  unfold G
  rw [hb]
  refine congrArg _ (funext fun a => Fin.ext ?_)
  match a with
  | ⟨0, _⟩ => exact he0.symm
  | ⟨1, _⟩ => show (y 1).val = (i 1).val % 128; rw [he1]; omega

theorem cover (i : S3x8192.Idx) : ∃ t : Fin cfg0.N, (cfg0.win 4).flush t = true ∧ i ∈ ((cfg0.win 4).blk t).view.set := by
  obtain ⟨-, -, -, -, -, -, -, -, e0, e1, -⟩ := idx_facts (blockOf i)
  refine ⟨blockOf i, flush0_4 _, ?_⟩
  show i ∈ ((View.whole main_v24).slice (win0_4.rect (blockOf i))).set
  rw [View.set_slice_whole, Rect.mem_set_unit]
  have h0 : (i 0).val < 3 := idx2_lt0 i
  have h1 : (i 1).val < 8192 := idx2_lt1 i
  have hb : (blockOf i).val = (i 1).val / 128 := rfl
  intro a
  match a with
  | ⟨0, _⟩ =>
    show win0_4.index (blockOf i) (0 : Fin 2) * 3 ≤ (i 0).val ∧ (i 0).val < win0_4.index (blockOf i) (0 : Fin 2) * 3 + 3
    rw [e0]; omega
  | ⟨1, _⟩ =>
    show win0_4.index (blockOf i) (1 : Fin 2) * 128 ≤ (i 1).val ∧ (i 1).val < win0_4.index (blockOf i) (1 : Fin 2) * 128 + 128
    rw [e1, hb]; omega

/-- The array after the run. -/
theorem final (c : Dev nD) : (dats m 0 c).arrAt 4 cfg0.N = G m c :=
  (dats m 0 c).arrAt_eq_of_cover 4 (G m c) (fun t _ => flushed_eq m c t) (cover)

end Cert.KStats

end
-- ==== Proof.Keys.lean ====
/- The labels as the programs read them: `lab`, the label of sample `i`, and `kl`, the label of key `j` — the sample
   labels followed by the seven class numbers `0 … 6` of the class centres (the reference's own joined label vector). -/
import proofs.«176555_j40235253629101_1_alg».proof.Proof.Gen.ReferenceIdeal.Read
import proofs.«176555_j40235253629101_1_alg».proof.Proof.Spec
import Idealize.ShloMosaic.Lib.ValueIdx

noncomputable section

namespace Cert.Keys

open Idealize.ShloMosaic Idealize.ShloMosaic.ValueIdx

/-- The label of sample `i`. -/
def lab (x1 : (⟨Cert.ReferenceIdeal.S8192, .i32⟩ : BufTy).Contents (Elt Ideal)) (i : Fin 8192) : BitVec 32 := x1 (ix1 i)

/-- The label of key `j`: entry `j` of the sample labels joined with the class numbers. -/
def kl (x1 : (⟨Cert.ReferenceIdeal.S8192, .i32⟩ : BufTy).Contents (Elt Ideal)) (j : Fin 8199) : BitVec 32 :=
  Cert.ReferenceIdeal.Read.val_main_v7 (F := Ideal) x1 (ix1 j)

/-- What the reference side owes: with the normalised rows real, the share of the positives and their number, row by row. -/
def RefRows (x0 : (⟨Cert.ReferenceIdeal.S8192x128, .f32⟩ : BufTy).Contents (Elt Ideal))
    (x1 : (⟨Cert.ReferenceIdeal.S8192, .i32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) (r : Fin 8199 → Fin 128 → ℝ) : Prop :=
  ∃ M : ℝ, (∀ i : Fin 8192, Cert.ReferenceIdeal.Read.val_main_v58 (F := Ideal) x0 x1 x2 x3 x4 (ix1 i) = Cert.Spec.q r (lab x1) (kl x1) M i)
    ∧ ∀ i : Fin 8192, Cert.ReferenceIdeal.Read.val_main_v60 (F := Ideal) x1 (ix1 i) = ((Cert.Spec.C (lab x1) (kl x1) i : ℝ) : EReal)

/-- The normalised rows are real: entry `(j, k)` of the reference's normalised matrix is the real `r j k`. -/
def RowsReal (x0 : (⟨Cert.ReferenceIdeal.S8192x128, .f32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) (r : Fin 8199 → Fin 128 → ℝ) : Prop :=
  ∀ (j : Fin 8199) (k : Fin 128), Cert.ReferenceIdeal.Read.val_main_v15 (F := Ideal) x0 x2 x3 x4 (ix2 j k) = ((r j k : ℝ) : EReal)

end Cert.Keys

end
-- ==== Proof.KernelInputs.lean ====
/-
  The four arrays the kernel reads, in terms of what the reference computes.

  Before its region the kernel's program runs the reference's first sixteen host operations — they give the
  normalised rows (8199 × 128: the 8192 sample rows and the 7 class-centre rows, each divided by its length) and the
  joined label vector (8199 words) — and then pads both to 8320 keys: the rows with 121 rows of zeros, the labels
  with 121 copies of the word 0xFFFFFFFF.  The kernel reads
    * the padded rows, converted to the narrower float format (the identity on the extended reals),
    * their first 8192 rows (the samples),
    * the padded labels viewed as one row of 8320 words,
    * the sample labels viewed as a column of 8192 words.
  Each is read here at an index: a key below 8199 reads the reference's row or label, a key from 8199 on reads the
  padding.

  Method.  What an array holds when the region is entered is the composition of the host operations that wrote it.
  The normalised rows and the joined labels are compared with the reference's as whole compositions.  For the arrays
  built from them the list of operations is run in two stretches — the first eighteen operations (through the
  normalised rows), then the ten that pad, convert, slice and reshape — and the contents after the first stretch are
  carried as one unnamed valuation: each padded array is then one short composition over it, written as an equation
  between arrays, and read at an index with the lemmas on joins, slices, casts between shapes and broadcasts of a
  scalar.
-/
import proofs.«176555_j40235253629101_1_alg».proof.Proof.KernelIdealFrame
import proofs.«176555_j40235253629101_1_alg».proof.Proof.Keys
import proofs.«176555_j40235253629101_1_alg».proof.Proof.Consts
import proofs.«176555_j40235253629101_1_alg».proof.Proof.LibKeepdims

noncomputable section

namespace Cert.KernelInputs

open Cert.KernelIdeal Cert.KernelIdeal.Gen Cert.KernelIdeal.GenP Idealize.ShloMosaic Idealize.ShloMosaic.ValueIdx
  Idealize.ShloMosaic.TcCoe

/-! ## Layout operations at the literal shapes, read at an index -/

section Layout

variable {α : Type}

/-- 8199 rows joined with 121 rows: a row below 8199 is a row of the first block, a row from 8199 on is row
    `j - 8199` of the second. -/
theorem concat_rows_apply (X : S8199x128.Idx → α) (Z : S121x128.Idx → α)
    (h : Shape.Concatenates [S8199x128, S121x128] S8320x128 0) (j : Fin 8320) (k : Fin 128) :
    concatenate S8320x128 0 [⟨S8199x128, X⟩, ⟨S121x128, Z⟩] h (ix2 j k)
      = if hj : j.val < 8199 then X (ix2 ⟨j.val, hj⟩ k) else Z (ix2 ⟨j.val - 8199, by omega⟩ k) := by
  by_cases hj : j.val < 8199
  · rw [dif_pos hj]
    exact concatenate_pair_apply_left (t := S8320x128) (s₁ := S8199x128) (s₂ := S121x128) 0 X Z h (ix2 j k) rfl
      (ix2 ⟨j.val, hj⟩ k) (fun b => match b with | ⟨0, _⟩ => rfl | ⟨1, _⟩ => rfl)
  · rw [dif_neg hj]
    exact concatenate_pair_apply_right (t := S8320x128) (s₁ := S8199x128) (s₂ := S121x128) 0 X Z h (ix2 j k) rfl rfl
      (ix2 ⟨j.val - 8199, by omega⟩ k)
      (fun b hb => match b, hb with
        | ⟨0, _⟩, hb => absurd (Fin.ext rfl) hb
        | ⟨1, _⟩, _ => rfl)
      (by show (j.val - 8199) + 8199 = j.val; omega)

/-- 8199 words joined with 121 words: the same, for vectors. -/
theorem concat_keys_apply (X : S8199.Idx → α) (Z : S121.Idx → α)
    (h : Shape.Concatenates [S8199, S121] S8320 0) (j : Fin 8320) :
    concatenate S8320 0 [⟨S8199, X⟩, ⟨S121, Z⟩] h (ix1 j)
      = if hj : j.val < 8199 then X (ix1 ⟨j.val, hj⟩) else Z (ix1 ⟨j.val - 8199, by omega⟩) := by
  by_cases hj : j.val < 8199
  · rw [dif_pos hj]
    exact concatenate_pair_apply_left (t := S8320) (s₁ := S8199) (s₂ := S121) 0 X Z h (ix1 j) rfl
      (ix1 ⟨j.val, hj⟩) (fun b => match b with | ⟨0, _⟩ => rfl)
  · rw [dif_neg hj]
    exact concatenate_pair_apply_right (t := S8320) (s₁ := S8199) (s₂ := S121) 0 X Z h (ix1 j) rfl rfl
      (ix1 ⟨j.val - 8199, by omega⟩)
      (fun b hb => match b, hb with
        | ⟨0, _⟩, hb => absurd (Fin.ext rfl) hb)
      (by show (j.val - 8199) + 8199 = j.val; omega)

/-- A scalar broadcast to 121 × 128 is that scalar everywhere. -/
theorem bcast_rows_apply (h : S_.BroadcastsInDim S121x128 (![] : Fin 0 → Fin S121x128.rank)) (x : S_.Idx → α)
    (j : S121x128.Idx) : broadcastInDim S121x128 ![] h x j = x (fun a => a.elim0) :=
  broadcastInDim_apply _ h x j (fun a => a.elim0) (fun a => a.elim0)

/-- A scalar broadcast to 121 words is that scalar everywhere. -/
theorem bcast_keys_apply (h : S_.BroadcastsInDim S121 (![] : Fin 0 → Fin S121.rank)) (x : S_.Idx → α)
    (j : S121.Idx) : broadcastInDim S121 ![] h x j = x (fun a => a.elim0) :=
  broadcastInDim_apply _ h x j (fun a => a.elim0) (fun a => a.elim0)

/-- The first 8192 rows of an 8320-row array: row `i` of the slice is row `i` of the array. -/
theorem slice_rows_apply (X : S8320x128.Idx → α) (h : S8320x128.Slices ![0, 0] S8192x128) (i : Fin 8192)
    (k : Fin 128) : extractStridedSlice S8192x128 ![0, 0] X h (ix2 i k) = X (ix2 ⟨i.val, by omega⟩ k) :=
  extractStridedSlice_apply ![0, 0] X h (ix2 i k) (ix2 ⟨i.val, by omega⟩ k) (fun a => match a with
    | ⟨0, _⟩ => by show i.val = 0 + i.val; omega
    | ⟨1, _⟩ => by show k.val = 0 + k.val; omega)

/-- A vector of 8320 words viewed as one row: entry `(0, j)` is entry `j` (the same row-major position). -/
theorem cast_row_apply (X : S8320.Idx → α) (h : S8320.ShapeCasts S1x8320) (u : Fin 1) (j : Fin 8320) :
    shapeCast S1x8320 X h (ix2 u j) = X (ix1 j) :=
  shapeCast_apply X h (ix2 u j) (ix1 j) (by
    have hu : u.val = 0 := by omega
    rw [Shape.rowMajor_val_two, Shape.rowMajor_val_one]
    show j.val = u.val * 8320 + j.val
    omega)

end Layout

/-! ## Running the host operations in two stretches -/

/-- Running a list of operations is running an initial stretch and then the rest from what it leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op ops ih => simp only [List.cons_append, StableHlo.after_cons, ih]

variable (m : (ℓ : Loc nD τ sig) → Buf (Elt Ideal) ℓ) (c : Dev nD)

/-- Core `c`'s buffer contents after the first eighteen host operations: the normalised rows and the joined labels
    are written, the padding is not yet. -/
def Wmid : Valuation τ sig (Elt Ideal) := StableHlo.after ((hostOps0 (F := Ideal)).take 18) (fun b => m (c, b))

/-- The contents when the region is entered are the last ten host operations run from `Wmid`. -/
theorem after_split : StableHlo.after (List.flatten [hostOps0 (F := Ideal)]) (fun b => m (c, b)) =
    StableHlo.after ((hostOps0 (F := Ideal)).drop 18) (Wmid m c) := by
  unfold Wmid
  rw [← after_append, List.take_append_drop, List.flatten_cons, List.flatten_nil, List.append_nil]

/-! ## The arrays as compositions of the host operations -/

/-- The normalised rows the kernel's program computes are the reference's: the same sixteen operations on the same
    arguments. -/
theorem rows_eq : (V (F := Ideal) m c main_v15 : S8199x128.Idx → EReal) =
    Cert.ReferenceIdeal.Read.val_main_v15 (F := Ideal) (m ((c : Thread nD τ).loc main_arg0))
      (m ((c : Thread nD τ).loc main_arg2)) (m ((c : Thread nD τ).loc main_arg3)) (m ((c : Thread nD τ).loc main_arg4)) := by
  show StableHlo.after hostOps0 (fun b => m (c, b)) (Proc.devRef .tc main_v15) = _
  after_results
  unfold Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_cst_0
    Cert.ReferenceIdeal.Read.val_main_v10 Cert.ReferenceIdeal.Read.val_main_v9 Cert.ReferenceIdeal.Read.val_main_cst
    Cert.ReferenceIdeal.Read.val_main_v8 Cert.ReferenceIdeal.Read.val_main_v6 Cert.ReferenceIdeal.Read.val_main_v4
    Cert.ReferenceIdeal.Read.val_main_v3 Cert.ReferenceIdeal.Read.val_main_v2 Cert.ReferenceIdeal.Read.val_main_v1
    Cert.ReferenceIdeal.Read.val_main_v0
  rfl

/-- The joined label vector the kernel's program computes is the reference's. -/
theorem keys_eq : (V (F := Ideal) m c main_v7 : S8199.Idx → BitVec 32) =
    Cert.ReferenceIdeal.Read.val_main_v7 (F := Ideal) (m ((c : Thread nD τ).loc main_arg1)) := by
  show StableHlo.after hostOps0 (fun b => m (c, b)) (Proc.devRef .tc main_v7) = _
  after_results
  unfold Cert.ReferenceIdeal.Read.val_main_v7 Cert.ReferenceIdeal.Read.val_main_v5
  rfl

/-- The padded rows: the normalised rows joined with 121 rows of the zero word. -/
theorem v17_eq : (V (F := Ideal) m c main_v17 : S8320x128.Idx → EReal) =
    concatenate S8320x128 0
      [⟨S8199x128, (V (F := Ideal) m c main_v15 : S8199x128.Idx → EReal)⟩,
       ⟨S121x128, broadcastInDim S121x128 ![] Facts₀.bcast_S_S121x128 (constant (F := Ideal) S_ .f32 0x00000000#32)⟩]
      Facts₀.concatenates_S8199x128_S121x128_S8320x128_d0 := by
  dsimp only [V, V0]
  rw [after_split m c]
  generalize Wmid m c = w
  simp only [hostOps0, List.drop_succ_cons, List.drop_zero]
  after_results
  all_goals rfl

/-- The padded rows in the narrower float format. -/
theorem v20_eq : (V (F := Ideal) m c main_v20 : FVec Ideal S8320x128 .bf16) =
    (truncf (F := Ideal) (s := S8320x128) (φ := .f32) .bf16 (V (F := Ideal) m c main_v17) Facts₀.bitsLt_bf16_f32 :
      FVec Ideal S8320x128 .bf16) := by
  dsimp only [V, V0]
  rw [after_split m c]
  generalize Wmid m c = w
  simp only [hostOps0, List.drop_succ_cons, List.drop_zero]
  after_results
  all_goals rfl

/-- The samples' rows: the first 8192 of the padded rows. -/
theorem v22_eq : (V (F := Ideal) m c main_v22 : S8192x128.Idx → EReal) =
    extractStridedSlice S8192x128 ![0, 0] (V (F := Ideal) m c main_v20 : S8320x128.Idx → EReal)
      Facts₀.slices_S8320x128_S8192x128_0_0 := by
  dsimp only [V, V0]
  rw [after_split m c]
  generalize Wmid m c = w
  simp only [hostOps0, List.drop_succ_cons, List.drop_zero]
  after_results
  all_goals rfl

/-- The padded labels: the joined label vector followed by 121 copies of the all-ones word. -/
theorem v19_eq : (V (F := Ideal) m c main_v19 : S8320.Idx → BitVec 32) =
    concatenate S8320 0
      [⟨S8199, (V (F := Ideal) m c main_v7 : S8199.Idx → BitVec 32)⟩,
       ⟨S121, broadcastInDim S121 ![] Facts₀.bcast_S_S121 (constantI S_ 32 4294967295#32)⟩]
      Facts₀.concatenates_S8199_S121_S8320_d0 := by
  dsimp only [V, V0]
  rw [after_split m c]
  generalize Wmid m c = w
  simp only [hostOps0, List.drop_succ_cons, List.drop_zero]
  after_results
  all_goals rfl

/-- The padded labels viewed as one row. -/
theorem v21_eq : (V (F := Ideal) m c main_v21 : S1x8320.Idx → BitVec 32) =
    shapeCast S1x8320 (V (F := Ideal) m c main_v19 : S8320.Idx → BitVec 32) Facts₀.shapeCasts_S8320_S1x8320 := by
  dsimp only [V, V0]
  rw [after_split m c]
  generalize Wmid m c = w
  simp only [hostOps0, List.drop_succ_cons, List.drop_zero]
  after_results
  all_goals rfl

/-- The sample labels viewed as a column. -/
theorem v23_eq : (V (F := Ideal) m c main_v23 : S8192x1.Idx → BitVec 32) =
    shapeCast S8192x1 (m ((c : Thread nD τ).loc main_arg1)) Facts₀.shapeCasts_S8192_S8192x1 := by
  show StableHlo.after hostOps0 (fun b => m (c, b)) (Proc.devRef .tc main_v23) = _
  after_results
  all_goals rfl

/-! ## The four arrays the kernel reads, at an index -/

/-- The padded rows: key `j` below 8199 reads the normalised row `j`, a key from 8199 on reads `0`. -/
theorem x2_apply (j : Fin 8320) (k : Fin 128) : V (F := Ideal) m c main_v20 (ix2 j k) =
    if h : j.val < 8199 then V (F := Ideal) m c main_v15 (ix2 ⟨j.val, h⟩ k) else (0 : EReal) := by
  rw [v20_eq m c]
  refine (truncf_apply (V (F := Ideal) m c main_v17 : FVec Ideal S8320x128 .f32) Facts₀.bitsLt_bf16_f32 (ix2 j k)).trans ?_
  rw [v17_eq m c]
  refine (concat_rows_apply _ _ Facts₀.concatenates_S8199x128_S121x128_S8320x128_d0 j k).trans ?_
  by_cases hj : j.val < 8199
  · rw [dif_pos hj, dif_pos hj]
  · rw [dif_neg hj, dif_neg hj]
    refine (bcast_rows_apply Facts₀.bcast_S_S121x128 _ _).trans ?_
    exact (constant_apply (φ := .f32) 0x00000000#32 _).trans Cert.Consts.ofBits_zero

/-- The samples' rows: row `i` is row `i` of the padded rows. -/
theorem x0_apply (i : Fin 8192) (k : Fin 128) : V (F := Ideal) m c main_v22 (ix2 i k) =
    V (F := Ideal) m c main_v20 (ix2 ⟨i.val, by omega⟩ k) := by
  rw [v22_eq m c]
  exact slice_rows_apply _ Facts₀.slices_S8320x128_S8192x128_0_0 i k

/-- The padded labels as a row: key `j` below 8199 reads the joined label `j`, a key from 8199 on the all-ones
    word. -/
theorem x3_apply (u : Fin 1) (j : Fin 8320) : V (F := Ideal) m c main_v21 (ix2 u j) =
    if h : j.val < 8199 then V (F := Ideal) m c main_v7 (ix1 ⟨j.val, h⟩) else 0xFFFFFFFF#32 := by
  rw [v21_eq m c]
  refine (cast_row_apply _ Facts₀.shapeCasts_S8320_S1x8320 u j).trans ?_
  rw [v19_eq m c]
  refine (concat_keys_apply _ _ Facts₀.concatenates_S8199_S121_S8320_d0 j).trans ?_
  by_cases hj : j.val < 8199
  · rw [dif_pos hj, dif_pos hj]
  · rw [dif_neg hj, dif_neg hj]
    exact bcast_keys_apply Facts₀.bcast_S_S121 _ _

/-- The sample labels as a column: entry `(i, 0)` is the label of sample `i`. -/
theorem x1_apply (i : Fin 8192) (u : Fin 1) : V (F := Ideal) m c main_v23 (ix2 i u) =
    m ((c : Thread nD τ).loc main_arg1) (ix1 i) := by
  rw [v23_eq m c]
  exact Cert.LibKeepdims.shapeCast_a_a1_apply _ Facts₀.shapeCasts_S8192_S8192x1 i u

end Cert.KernelInputs

end
-- ==== Proof.LibRowMaxReal.lean ====
/-
  A row's maximum, as a host program's max-reduce computes it, is a real number when the row's entries are.

  The host's reduce with a maximum body over the column axis of a matrix `[R, C]`, from the initial value `−∞`, is at row
  `r` the fold of `max` from `⊥` over the row's `C` entries. A fold of `max` from `⊥` over a finite set is `⊥` or one of
  the maxima met on the way, each the embedding of a real when the entries are; over a non-empty set (`0 < C`) the first
  step already leaves `⊥`. Nothing more is needed of it where only the row's shift by SOME real matters.
-/
import Idealize.ShloMosaic.Lib.ValueIdx
import Idealize.ShloMosaic.PureOps.Reduce
import Idealize.ShloMosaic.PureOps.Ideal.Laws

noncomputable section

namespace Cert.LibRowMaxReal

open Idealize.ShloMosaic Idealize.ShloMosaic.ValueIdx

/-- A fold of `max` from `⊥` over entries that are reals is `⊥` (over the empty set only) or a real. -/
theorem fold_max_bot_or_coe {ι : Type*} [DecidableEq ι] (f : ι → EReal) (s : Finset ι) (hf : ∀ k ∈ s, ∃ v : ℝ, f k = (v : EReal)) :
    (s = ∅ ∧ s.fold max ⊥ f = ⊥) ∨ ∃ v : ℝ, s.fold max ⊥ f = (v : EReal) := by
  induction s using Finset.induction_on with
  | empty => exact Or.inl ⟨rfl, Finset.fold_empty⟩
  | insert a s ha ih =>
    obtain ⟨va, hva⟩ := hf a (Finset.mem_insert_self a s)
    right
    rw [Finset.fold_insert ha, hva]
    rcases ih (fun k hk => hf k (Finset.mem_insert_of_mem hk)) with ⟨_, h0⟩ | ⟨v, hv⟩
    · exact ⟨va, by rw [h0]; exact max_eq_left bot_le⟩
    · exact ⟨max va v, by rw [hv]; exact (Monotone.map_max EReal.coe_strictMono.monotone).symm⟩

/-- Over a non-empty set it is a real. -/
theorem fold_max_coe {ι : Type*} [DecidableEq ι] (f : ι → EReal) (s : Finset ι) (hs : s.Nonempty)
    (hf : ∀ k ∈ s, ∃ v : ℝ, f k = (v : EReal)) : ∃ v : ℝ, s.fold max ⊥ f = (v : EReal) := by
  rcases fold_max_bot_or_coe f s hf with ⟨h0, _⟩ | h
  · exact absurd h0 hs.ne_empty
  · exact h

/-- The reduced index `r` with column `k` put back is (r, k). -/
theorem lift_ix2 {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- THE ROW MAXIMUM IS A REAL: the host's max-reduce over the columns from `−∞`, at a row whose entries are reals. -/
theorem row_max_real {R C : Nat} (hC : 0 < C) (x : FVec Ideal ⟨2, ![R, C]⟩ .f32)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R)
    (hx : ∀ j : Fin C, ∃ v : ℝ, x (ix2 r j) = (v : EReal)) :
    ∃ v : ℝ, Host.reduce FloatOps.maximumf x (constant (F := Ideal) (⟨0, ![]⟩ : Shape) .f32 0xFF800000#32) h' hu (ix1 r)
      = (v : EReal) := by
  rw [Host.reduce_eq_fold_single (FloatOps.maximumf (F := Ideal) (φ := .f32)) x _ h' h hu]
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hb]
  refine fold_max_coe (x ∘ h.lift (ix1 r)) Finset.univ ⟨⟨0, hC⟩, Finset.mem_univ _⟩ fun k _ => ?_
  show ∃ v : ℝ, x (h.lift (ix1 r) k) = (v : EReal)
  rw [lift_ix2 h r k]
  exact hx _

end Cert.LibRowMaxReal

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.RefSide.lean ====
/-
  The reference program read entry by entry over the reals.

  With the normalised rows real (entry (j, k) is r j k), every intermediate matrix of the reference is real at every
  entry: the cosine is the inner product of two rows, the score is ((1 + cos)/2 + eps) * ne / T, the global maximum of
  the scores is SOME real M (a maximum of finitely many reals over a non-empty index set), the exponentials are
  exp (score - M), the two masks are the indicators pm and ne, and the three row sums are finite real sums. The
  quotient of the positives' sum by the total is then, by definition, the specification's q.
-/
import proofs.«176555_j40235253629101_1_alg».proof.Proof.Keys
import proofs.«176555_j40235253629101_1_alg».proof.Proof.Consts
import proofs.«176555_j40235253629101_1_alg».proof.Proof.LibERealSum
import proofs.«176555_j40235253629101_1_alg».proof.Proof.LibRowMaxReal
import proofs.«176555_j40235253629101_1_alg».proof.Proof.LibIdx
import Idealize.ShloMosaic.PureOps.Reduce
import Idealize.ShloMosaic.PureOps.Ideal.Laws
import Idealize.ShloMosaic.Lib.ValueIdx

noncomputable section

namespace Cert.RefSide

open Idealize.ShloMosaic Idealize.ShloMosaic.ValueIdx Cert.ReferenceIdeal Cert.ReferenceIdeal.Gen Cert.ReferenceIdeal.Read
open Cert.Proof.LibIdx Cert.Keys

variable {x0 : (⟨Cert.ReferenceIdeal.S8192x128, .f32⟩ : BufTy).Contents (Elt Ideal)}
  {x1 : (⟨Cert.ReferenceIdeal.S8192, .i32⟩ : BufTy).Contents (Elt Ideal)}
  {x2 : (⟨Cert.ReferenceIdeal.S7x256, .f32⟩ : BufTy).Contents (Elt Ideal)}
  {x3 : (⟨Cert.ReferenceIdeal.S128x256, .f32⟩ : BufTy).Contents (Elt Ideal)}
  {x4 : (⟨Cert.ReferenceIdeal.S128, .f32⟩ : BufTy).Contents (Elt Ideal)} {r : Fin 8199 → Fin 128 → ℝ}

/-! ## Words -/

/-- Two numbers below 2^32 have the same 32-bit word only when they are equal. -/
theorem ofNat32_inj {a b : Nat} (ha : a < 8199) (hb : b < 8199) : BitVec.ofNat 32 a = BitVec.ofNat 32 b ↔ a = b := by
  constructor
  · intro h
    have h' := congrArg BitVec.toNat h
    simp only [BitVec.toNat_ofNat] at h'
    omega
  · rintro rfl; rfl

/-- The bit of an equality test, read unsigned as a float, is the indicator of the equality. -/
theorem uitofp_cmpi_eq (a b : BitVec 32) :
    FloatOps.uitofp (F := Ideal) .f32 (IntOp.cmpi .eq a b) = (((if a = b then 1 else 0 : ℝ)) : EReal) := by
  show ((((BitVec.ofBool (a == b)).toNat : ℕ) : ℝ) : EReal) = _
  by_cases h : a = b
  · have hb : (a == b) = true := beq_iff_eq.2 h
    rw [hb, if_pos h]; simp
  · have hb : (a == b) = false := beq_eq_false_iff_ne.2 h
    rw [hb, if_neg h]; simp

/-! ## The constants, broadcast to every entry -/

theorem v19_at (i : Fin 8192) (j : Fin 8199) : val_main_v19 (F := Ideal) (ix2 i j) = ((1 : ℝ) : EReal) := by
  rw [val_main_v19_apply, val_main_cst_1_apply]; exact Cert.Consts.ofBits_one

theorem v21_at (i : Fin 8192) (j : Fin 8199) : val_main_v21 (F := Ideal) (ix2 i j) = ((1 / 2 : ℝ) : EReal) := by
  rw [val_main_v21_apply, val_main_cst_2_apply]; exact Cert.Consts.ofBits_half

theorem v23_at (i : Fin 8192) (j : Fin 8199) : val_main_v23 (F := Ideal) (ix2 i j) = ((Cert.Spec.eps : ℝ) : EReal) := by
  rw [val_main_v23_apply, val_main_cst_3_apply]; exact Cert.Consts.ofBits_eps

theorem v33_at (i : Fin 8192) (j : Fin 8199) : val_main_v33 (F := Ideal) (ix2 i j) = ((1 : ℝ) : EReal) := by
  rw [val_main_v33_apply, val_main_cst_4_apply]; exact Cert.Consts.ofBits_one

theorem v36_at (i : Fin 8192) (j : Fin 8199) :
    val_main_v36 (F := Ideal) (ix2 i j) = ((9395241 / 134217728 : ℝ) : EReal) := by
  rw [val_main_v36_apply, val_main_cst_5_apply]; exact Cert.Consts.ofBits_temp

theorem v48_at (i : Fin 8192) (j : Fin 8199) : val_main_v48 (F := Ideal) (ix2 i j) = ((1 : ℝ) : EReal) := by
  rw [val_main_v48_apply, val_main_cst_7_apply]; exact Cert.Consts.ofBits_one

theorem v53_at (i : Fin 8192) (j : Fin 8199) : val_main_v53 (F := Ideal) (ix2 i j) = ((1 : ℝ) : EReal) := by
  rw [val_main_v53_apply, val_main_cst_9_apply]; exact Cert.Consts.ofBits_one

/-! ## The cosine: the inner product of row i and row j of the normalised matrix -/

/-- The first 8192 rows of the normalised matrix are the sample rows. -/
theorem v16_at (hr : RowsReal x0 x2 x3 x4 r) (i : Fin 8192) (k : Fin 128) :
    val_main_v16 (F := Ideal) x0 x2 x3 x4 (ix2 i k) = ((r (Cert.Spec.qrow i) k : ℝ) : EReal) := by
  rw [val_main_v16_apply]
  have e : idx_main_v16 (ix2 i k) = ix2 (Cert.Spec.qrow i) k := ix2_ext _ _ _ rfl rfl
  exact (congrArg _ e).trans (hr _ _)

/-- The transposed matrix at (k, j) is the normalised matrix at (j, k). -/
theorem v17_at (hr : RowsReal x0 x2 x3 x4 r) (k : Fin 128) (j : Fin 8199) :
    val_main_v17 (F := Ideal) x0 x2 x3 x4 (ix2 k j) = ((r j k : ℝ) : EReal) := by
  rw [val_main_v17_apply]
  have e : idx_main_v17 (ix2 k j) = ix2 j k := ix2_ext _ _ _ rfl rfl
  exact (congrArg _ e).trans (hr _ _)

theorem v18_at (hr : RowsReal x0 x2 x3 x4 r) (i : Fin 8192) (j : Fin 8199) :
    val_main_v18 (F := Ideal) x0 x2 x3 x4 (ix2 i j) = ((Cert.Spec.cosr r i j : ℝ) : EReal) := by
  rw [val_main_v18_apply]
  unfold Cert.Spec.cosr
  rw [Cert.LibERealSum.coe_sum]
  refine Finset.sum_congr rfl fun k _ => ?_
  have el : lidx_main_v18 (ix2 i j) k = ix2 i k := ix2_ext _ _ _ rfl rfl
  have er : ridx_main_v18 (ix2 i j) k = ix2 k j := ix2_ext _ _ _ rfl rfl
  rw [el, er, v16_at hr, v17_at hr, EReal.coe_mul]

/-- (1 + cos) / 2 + eps. -/
theorem v24_at (hr : RowsReal x0 x2 x3 x4 r) (i : Fin 8192) (j : Fin 8199) :
    val_main_v24 (F := Ideal) x0 x2 x3 x4 (ix2 i j)
      = (((1 + Cert.Spec.cosr r i j) * (1 / 2) + Cert.Spec.eps : ℝ) : EReal) := by
  rw [val_main_v24_apply, val_main_v22_apply, val_main_v20_apply, v19_at, v18_at hr, v21_at, v23_at,
    Ideal.addf_def, Ideal.mulf_def, Ideal.addf_def, ← EReal.coe_add, ← EReal.coe_mul, ← EReal.coe_add]

/-! ## The mask of the sample itself -/

theorem v29_at (i : Fin 8192) (j : Fin 8199) : val_main_v29 (F := Ideal) (ix2 i j) = BitVec.ofNat 32 i.val := by
  rw [val_main_v29_apply, val_main_v26_apply, val_main_v25_apply]

theorem v30_at (i : Fin 8192) (j : Fin 8199) : val_main_v30 (F := Ideal) (ix2 i j) = BitVec.ofNat 32 j.val := by
  rw [val_main_v30_apply, val_main_v28_apply, val_main_v27_apply]

/-- The comparison of the two counters is the indicator that key j is sample i. -/
theorem v32_at (i : Fin 8192) (j : Fin 8199) :
    val_main_v32 (F := Ideal) (ix2 i j) = (((if i.val = j.val then 1 else 0 : ℝ)) : EReal) := by
  rw [val_main_v32_apply, val_main_v31_apply, v29_at, v30_at, uitofp_cmpi_eq]
  have hiff : BitVec.ofNat 32 i.val = BitVec.ofNat 32 j.val ↔ i.val = j.val :=
    ofNat32_inj (by have := i.isLt; omega) j.isLt
  by_cases h : i.val = j.val
  · rw [if_pos h, if_pos (hiff.2 h)]
  · rw [if_neg h, if_neg (fun e => h (hiff.1 e))]

theorem one_sub_ind (p : Prop) [Decidable p] : (1 : ℝ) - (if p then 1 else 0) = if p then 0 else 1 := by
  split_ifs <;> norm_num

theorem v34_at (i : Fin 8192) (j : Fin 8199) : val_main_v34 (F := Ideal) (ix2 i j) = ((Cert.Spec.ne i j : ℝ) : EReal) := by
  rw [val_main_v34_apply, v33_at, v32_at, Ideal.subf_def, ← EReal.coe_sub, one_sub_ind]; rfl

theorem v49_at (i : Fin 8192) (j : Fin 8199) : val_main_v49 (F := Ideal) (ix2 i j) = ((Cert.Spec.ne i j : ℝ) : EReal) := by
  rw [val_main_v49_apply, v48_at, v32_at, Ideal.subf_def, ← EReal.coe_sub, one_sub_ind]; rfl

/-! ## The score -/

theorem v35_at (hr : RowsReal x0 x2 x3 x4 r) (i : Fin 8192) (j : Fin 8199) :
    val_main_v35 (F := Ideal) x0 x2 x3 x4 (ix2 i j) = ((Cert.Spec.base r i j : ℝ) : EReal) := by
  rw [val_main_v35_apply, v24_at hr, v34_at, Ideal.mulf_def, ← EReal.coe_mul]; rfl

theorem v37_at (hr : RowsReal x0 x2 x3 x4 r) (i : Fin 8192) (j : Fin 8199) :
    val_main_v37 (F := Ideal) x0 x2 x3 x4 (ix2 i j) = ((Cert.Spec.score r i j : ℝ) : EReal) := by
  have hT : (1 / (9395241 / 134217728) : ℝ) = 134217728 / 9395241 := by norm_num
  rw [val_main_v37_apply, v35_at hr, v36_at, Ideal.hostDivf_def, Ideal.div_coe (by norm_num), hT, ← EReal.coe_mul]; rfl

/-! ## The global maximum is a real -/

/-- The reduce by maximum over both axes, from -inf, folds max over every entry; the entries are reals and there is
    at least one, so the result is a real. Which real is immaterial: it is only subtracted from every score. -/
theorem v38_real (hr : RowsReal x0 x2 x3 x4 r) :
    ∃ M : ℝ, ∀ j : S_.Idx, val_main_v38 (F := Ideal) x0 x2 x3 x4 j = ((M : ℝ) : EReal) := by
  have hy : ∀ (i : Fin 8192) (j : Fin 8199), ∃ v : ℝ, val_main_v37 (F := Ideal) x0 x2 x3 x4 (ix2 i j) = (v : EReal) :=
    fun i j => ⟨_, v37_at hr i j⟩
  unfold val_main_v38
  generalize val_main_v37 (F := Ideal) x0 x2 x3 x4 = y at hy ⊢
  have key : ∀ j : S_.Idx, ∃ v : ℝ,
      Host.reduce (FloatOps.maximumf (F := Ideal) (φ := .f32)) y (val_main_cst_6 (F := Ideal)) reducesTo_S8192x8199_S_d0_1 h_S_ j
        = (v : EReal) := by
    intro j
    rw [Host.reduce_eq_fold (FloatOps.maximumf (F := Ideal) (φ := .f32)) y _ reducesTo_S8192x8199_S_d0_1 h_S_ j]
    have hb : (val_main_cst_6 (F := Ideal)) (Shape.Idx.first h_S_) = (⊥ : EReal) := Cert.Consts.ofBits_neg_inf
    rw [hb]
    refine Cert.LibRowMaxReal.fold_max_coe y _ ⟨ix2 (0 : Fin 8192) (0 : Fin 8199), ?_⟩ fun k _ => ?_
    · rw [Finset.mem_filter]; exact ⟨Finset.mem_univ _, funext fun a => a.elim0⟩
    · obtain ⟨v, hv⟩ := hy (k 0) (k 1)
      exact ⟨v, (congrArg y (eq_ix2 k)).trans hv⟩
  obtain ⟨M, hM⟩ := key (fun a => a.elim0)
  refine ⟨M, fun j => ?_⟩
  have hj : j = (fun a => a.elim0) := funext fun a => a.elim0
  rw [hj]; exact hM

/-! ## The exponentials and the positives' mask -/

theorem v41_at (hr : RowsReal x0 x2 x3 x4 r) (M : ℝ)
    (hM : ∀ j : S_.Idx, val_main_v38 (F := Ideal) x0 x2 x3 x4 j = ((M : ℝ) : EReal)) (i : Fin 8192) (j : Fin 8199) :
    val_main_v41 (F := Ideal) x0 x2 x3 x4 (ix2 i j) = ((Real.exp (Cert.Spec.score r i j - M) : ℝ) : EReal) := by
  rw [val_main_v41_apply, val_main_v40_apply, val_main_v39_apply, hM, v37_at hr, Ideal.subf_def,
    Ideal.hostUnary_exp_def, ← EReal.coe_sub]
  exact Ideal.exp_coe _

/-- The label of sample i, broadcast along its row. -/
theorem v44_at (i : Fin 8192) (j : Fin 8199) : val_main_v44 (F := Ideal) x1 (ix2 i j) = lab x1 i := by
  rw [val_main_v44_apply, val_main_v42_apply]
  exact congrArg x1 (ix1_ext _ _ rfl)

/-- The label of key j, broadcast along its column. -/
theorem v45_at (i : Fin 8192) (j : Fin 8199) : val_main_v45 (F := Ideal) x1 (ix2 i j) = kl x1 j := by
  rw [val_main_v45_apply, val_main_v43_apply]
  exact congrArg (val_main_v7 (F := Ideal) x1) (ix1_ext _ _ rfl)

theorem v47_at (i : Fin 8192) (j : Fin 8199) :
    val_main_v47 (F := Ideal) x1 (ix2 i j) = ((Cert.Spec.pm (lab x1) (kl x1) i j : ℝ) : EReal) := by
  rw [val_main_v47_apply, val_main_v46_apply, v44_at, v45_at, uitofp_cmpi_eq]; rfl

theorem v54_at (i : Fin 8192) (j : Fin 8199) :
    val_main_v54 (F := Ideal) x1 (ix2 i j) = ((1 - Cert.Spec.pm (lab x1) (kl x1) i j : ℝ) : EReal) := by
  rw [val_main_v54_apply, v53_at, v47_at, Ideal.subf_def, ← EReal.coe_sub]

/-! ## The three row sums -/

theorem v52_at (hr : RowsReal x0 x2 x3 x4 r) (M : ℝ)
    (hM : ∀ j : S_.Idx, val_main_v38 (F := Ideal) x0 x2 x3 x4 j = ((M : ℝ) : EReal)) (i : Fin 8192) :
    val_main_v52 (F := Ideal) x0 x1 x2 x3 x4 (ix1 i) = ((Cert.Spec.P r (lab x1) (kl x1) M i : ℝ) : EReal) := by
  rw [val_main_v52_apply]
  have h0 : (val_main_cst_8 (F := Ideal)) (Shape.Idx.first h_S_) = (0 : EReal) := Cert.Consts.ofBits_zero
  rw [h0, zero_add]
  unfold Cert.Spec.P
  rw [Cert.LibERealSum.coe_sum]
  refine Finset.sum_congr rfl fun k _ => ?_
  have e : idx_main_v52 (ix1 i) k = ix2 i k := ix2_ext _ _ _ rfl rfl
  rw [e, val_main_v51_apply, val_main_v50_apply, v41_at hr M hM, v47_at, v49_at, Ideal.mulf_def, Ideal.mulf_def,
    ← EReal.coe_mul, ← EReal.coe_mul]

theorem v56_at (hr : RowsReal x0 x2 x3 x4 r) (M : ℝ)
    (hM : ∀ j : S_.Idx, val_main_v38 (F := Ideal) x0 x2 x3 x4 j = ((M : ℝ) : EReal)) (i : Fin 8192) :
    val_main_v56 (F := Ideal) x0 x1 x2 x3 x4 (ix1 i) = ((Cert.Spec.N r (lab x1) (kl x1) M i : ℝ) : EReal) := by
  rw [val_main_v56_apply]
  have h0 : (val_main_cst_10 (F := Ideal)) (Shape.Idx.first h_S_) = (0 : EReal) := Cert.Consts.ofBits_zero
  rw [h0, zero_add]
  unfold Cert.Spec.N
  rw [Cert.LibERealSum.coe_sum]
  refine Finset.sum_congr rfl fun k _ => ?_
  have e : idx_main_v56 (ix1 i) k = ix2 i k := ix2_ext _ _ _ rfl rfl
  rw [e, val_main_v55_apply, v41_at hr M hM, v54_at, Ideal.mulf_def, ← EReal.coe_mul]

theorem v60_at (i : Fin 8192) :
    val_main_v60 (F := Ideal) x1 (ix1 i) = ((Cert.Spec.C (lab x1) (kl x1) i : ℝ) : EReal) := by
  rw [val_main_v60_apply]
  have h0 : (val_main_cst_11 (F := Ideal)) (Shape.Idx.first h_S_) = (0 : EReal) := Cert.Consts.ofBits_zero
  rw [h0, zero_add]
  unfold Cert.Spec.C
  rw [Cert.LibERealSum.coe_sum]
  refine Finset.sum_congr rfl fun k _ => ?_
  have e : idx_main_v60 (ix1 i) k = ix2 i k := ix2_ext _ _ _ rfl rfl
  rw [e, val_main_v59_apply, v47_at, v49_at, Ideal.mulf_def, ← EReal.coe_mul]

/-! ## The share of the positives -/

theorem v58_at (hr : RowsReal x0 x2 x3 x4 r) (M : ℝ)
    (hM : ∀ j : S_.Idx, val_main_v38 (F := Ideal) x0 x2 x3 x4 j = ((M : ℝ) : EReal)) (i : Fin 8192) :
    val_main_v58 (F := Ideal) x0 x1 x2 x3 x4 (ix1 i) = Cert.Spec.q r (lab x1) (kl x1) M i := by
  rw [val_main_v58_apply, val_main_v57_apply, v52_at hr M hM, v56_at hr M hM, Ideal.hostDivf_def, Ideal.addf_def]; rfl

/-- THE REFERENCE SIDE: with the normalised rows real, the reference's share of the positives is the specification's
    q at the shift M the reference itself computes, and its count of positives is the specification's C. -/
theorem ref_rows (x0 : (⟨Cert.ReferenceIdeal.S8192x128, .f32⟩ : BufTy).Contents (Elt Ideal))
    (x1 : (⟨Cert.ReferenceIdeal.S8192, .i32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) (r : Fin 8199 → Fin 128 → ℝ)
    (hr : Cert.Keys.RowsReal x0 x2 x3 x4 r) : Cert.Keys.RefRows x0 x1 x2 x3 x4 r := by
  obtain ⟨M, hM⟩ := v38_real hr
  exact ⟨M, fun i => v58_at hr M hM i, fun i => v60_at i⟩

end Cert.RefSide

end
-- ==== Proof.Finite.lean ====
/-
  Finite inputs give finite normalised rows.

  The precondition says that every entry of the four float inputs has absolute value below `+∞` and that every label
  lies in `[0, 7)` as a signed word.  On the extended reals an entry whose absolute value is below `+∞` is a real.
  The normalised matrix — the samples' rows followed by the seven class centres (the prototypes projected, plus the
  bias), each row divided by the larger of its length and the positive constant `ε` — is then a matrix of reals:
  sums and products of reals are reals, a sum of squares is not negative so its square root is a real, the larger of
  that root and `ε` is a positive real, and a real over a nonzero real is a real.  A label that is at least `0` as a
  signed word is not the word `-1`.
-/
import proofs.«176555_j40235253629101_1_alg».proof.Proof.Keys
import proofs.«176555_j40235253629101_1_alg».proof.Proof.Consts
import proofs.«176555_j40235253629101_1_alg».proof.Proof.LibERealSum
import proofs.«176555_j40235253629101_1_alg».proof.Proof.LibIdx
import proofs.«176555_j40235253629101_1_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Finite

open Idealize.ShloMosaic Idealize.ShloMosaic.ValueIdx

/-! ## The precondition, read back

The precondition is a conjunction of five "for all entries" tests, each printed as a reduction by `and` of a
one-bit array from `1`. When the conjunction is `1`, every tested bit is `1`: every entry of the four float
inputs has absolute value below `+∞`, and every label lies in `[0, 7)` as a signed word. -/

/-- The scalar shape has one index. -/
instance : Subsingleton Cert.Pre_finite_inputs.S_.Idx := ⟨fun a b => funext fun d => d.elim0⟩

/-- The word `0x7F800000` denotes `+∞`. -/
theorem top_word : Ideal.ofBits .f32 0x7F800000#32 = ⊤ := by
  simp [Ideal.ofBits, Ideal.ieee]

/-- A Boolean whose one-bit word is `1` is `true`. -/
theorem ofBool_eq_one {b : Bool} (h : BitVec.ofBool b = 1#1) : b = true := by
  cases b
  · exact absurd h (by decide)
  · rfl

/-- An extended real whose absolute value `max x (-x)` is below `+∞` is neither infinity: it is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ v : ℝ, x = (v : EReal) := by
  have h' : Ideal.cmp .olt (max x (-x)) (Ideal.ofBits .f32 0x7F800000#32) = 1#1 := h
  rw [top_word] at h'
  have hlt : max x (-x) < ⊤ := of_decide_eq_true (ofBool_eq_one h')
  induction x using EReal.rec with
  | bot => exact absurd hlt (by simp)
  | coe v => exact ⟨v, rfl⟩
  | top => exact absurd hlt (by simp)

/-- A word that is at least `0` as a signed number is not `-1`. -/
theorem ne_neg_one_of_sge (w : BitVec 32) (h : IntOp.cmpi .sge w 0#32 = 1#1) : w ≠ 0xFFFFFFFF#32 := by
  intro hw
  have h0 := IntOp.cmpi_sge.1 h
  rw [hw] at h0
  exact absurd h0 (by decide)

/-- The precondition decoded: every entry of the four float inputs is a real, and no label is the word `-1`. -/
theorem decode (x0 : (⟨Cert.ReferenceIdeal.S8192x128, .f32⟩ : BufTy).Contents (Elt Ideal))
    (x1 : (⟨Cert.ReferenceIdeal.S8192, .i32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) [Cert.Pre_finite_inputs.Facts]
    (h : Cert.Pre_finite_inputs.fn (F := Ideal) x0 x1 x2 x3 x4 = fun _ => 1#1) :
    (∀ i, ∃ v : ℝ, x0 i = (v : EReal)) ∧ (∀ i, ∃ v : ℝ, x2 i = (v : EReal)) ∧ (∀ i, ∃ v : ℝ, x3 i = (v : EReal))
      ∧ (∀ i, ∃ v : ℝ, x4 i = (v : EReal)) ∧ ∀ i : Fin 8192, x1 (ix1 i) ≠ 0xFFFFFFFF#32 := by
  have e := congrFun h ValueIdx.ix0
  dsimp only [Cert.Pre_finite_inputs.fn, Cert.Pre_finite_inputs.fn_part1] at e
  obtain ⟨e0234, e1⟩ := IntOp.andi_eq_one.1 e
  obtain ⟨e023, e4⟩ := IntOp.andi_eq_one.1 e0234
  obtain ⟨e02, e3⟩ := IntOp.andi_eq_one.1 e023
  obtain ⟨e0, e2⟩ := IntOp.andi_eq_one.1 e02
  refine ⟨fun i => real_of_abs_lt _ (Host.reduce_andi_all _ _ _ _ _ e0 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i), fun i => ?_⟩
  have hi := Host.reduce_andi_all _ _ _ _ _ e1 (ix1 i)
  exact ne_neg_one_of_sge _ (IntOp.andi_eq_one.1 hi).1

/-! ## Reals through the normalisation

With every input entry a real, each stage of the normalisation stays in the reals: the class centres are finite sums of
products plus a bias entry; the joined matrix takes each entry from the samples or from the centres; a row's squared
length is a finite sum of squares, a real that is not negative, so its square root is a real; the maximum of that
length with the positive constant `ε` is a real that is at least `ε`, hence not `0`; and a real divided by a
nonzero real is a real. -/

/-- An extended real that is a real. -/
def IsReal (x : EReal) : Prop := ∃ v : ℝ, x = (v : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type*} (s : Finset ι) (f : ι → EReal) (h : ∀ i, IsReal (f i)) : IsReal (∑ i ∈ s, f i) := by
  choose g hg using h
  exact ⟨∑ i ∈ s, g i, by rw [Cert.LibERealSum.coe_sum]; exact Finset.sum_congr rfl fun i _ => hg i⟩

/-- The real `ε` is positive. -/
theorem eps_pos : (0 : ℝ) < 11258999 / 1125899906842624 := by norm_num

section Chain

open Cert.ReferenceIdeal Cert.ReferenceIdeal.Gen Cert.ReferenceIdeal.Read

variable (x0 : (⟨Cert.ReferenceIdeal.S8192x128, .f32⟩ : BufTy).Contents (Elt Ideal))
  (x2 : (⟨Cert.ReferenceIdeal.S7x256, .f32⟩ : BufTy).Contents (Elt Ideal))
  (x3 : (⟨Cert.ReferenceIdeal.S128x256, .f32⟩ : BufTy).Contents (Elt Ideal))
  (x4 : (⟨Cert.ReferenceIdeal.S128, .f32⟩ : BufTy).Contents (Elt Ideal))

/-- The class centres (the projection of the prototypes plus the bias) are real. -/
theorem centres_real (h2 : ∀ i, IsReal (x2 i)) (h3 : ∀ i, IsReal (x3 i)) (h4 : ∀ i, IsReal (x4 i)) (i : S7x128.Idx) :
    IsReal (val_main_v4 (F := Ideal) x2 x3 x4 i) := by
  rw [val_main_v4_apply, Ideal.addf_def]
  refine IsReal.add ?_ ?_
  · rw [val_main_v1_apply]
    refine IsReal.sum _ _ fun k => IsReal.mul (h2 _) ?_
    rw [val_main_v0_apply]
    exact h3 _
  · rw [val_main_v3_apply, val_main_v2_apply]
    exact h4 _

/-- The joined matrix — the samples' rows followed by the centres' — is real: each entry is an entry of one of the two. -/
theorem joined_real (h0 : ∀ i, IsReal (x0 i)) (h2 : ∀ i, IsReal (x2 i)) (h3 : ∀ i, IsReal (x3 i)) (h4 : ∀ i, IsReal (x4 i))
    (j : S8199x128.Idx) : IsReal (val_main_v6 (F := Ideal) x0 x2 x3 x4 j) := by
  have hc := centres_real x2 x3 x4 h2 h3 h4
  unfold val_main_v6
  generalize val_main_v4 (F := Ideal) x2 x3 x4 = y at hc ⊢
  have hj8199 : (j 0).val < 8199 := (j 0).isLt
  by_cases hj : (j 0).val < 8192
  · have e := concatenate_pair_apply_left (t := S8199x128) (s₁ := S8192x128) (s₂ := S7x128) 0 x0 y
      concatenates_S8192x128_S7x128_S8199x128_d0 j rfl
      (fun b => match b with | ⟨0, _⟩ => ⟨(j 0).val, hj⟩ | ⟨1, _⟩ => ⟨(j 1).val, (j 1).isLt⟩)
      (fun b => match b with | ⟨0, _⟩ => rfl | ⟨1, _⟩ => rfl)
    rw [e]
    exact h0 _
  · have e := concatenate_pair_apply_right (t := S8199x128) (s₁ := S8192x128) (s₂ := S7x128) 0 x0 y
      concatenates_S8192x128_S7x128_S8199x128_d0 j rfl rfl
      (fun b => match b with | ⟨0, _⟩ => ⟨(j 0).val - 8192, by show (j 0).val - 8192 < 7; omega⟩ | ⟨1, _⟩ => ⟨(j 1).val, (j 1).isLt⟩)
      (fun b => match b with | ⟨0, _⟩ => fun hb => absurd rfl hb | ⟨1, _⟩ => fun _ => rfl)
      (by show (j 0).val - 8192 + 8192 = (j 0).val; omega)
    rw [e]
    exact hc _

/-- The normalised matrix is real: every entry of the joined matrix over the larger of its row's length and `ε`. -/
theorem normalised_real (h0 : ∀ i, IsReal (x0 i)) (h2 : ∀ i, IsReal (x2 i)) (h3 : ∀ i, IsReal (x3 i)) (h4 : ∀ i, IsReal (x4 i))
    (j : S8199x128.Idx) : IsReal (val_main_v15 (F := Ideal) x0 x2 x3 x4 j) := by
  choose a ha using joined_real x0 x2 x3 x4 h0 h2 h3 h4
  -- a row's squared length
  have h9 : ∀ i : S8199.Idx, val_main_v9 (F := Ideal) x0 x2 x3 x4 i
      = ((∑ k : Fin 128, a (idx_main_v9 i k) * a (idx_main_v9 i k) : ℝ) : EReal) := fun i => by
    rw [val_main_v9_apply, val_main_cst_apply, Ideal.ofBits_def, Cert.Consts.ofBits_zero, zero_add, Cert.LibERealSum.coe_sum]
    refine Finset.sum_congr rfl fun k _ => ?_
    rw [val_main_v8_apply, Ideal.mulf_def, ha, ← EReal.coe_mul]
  -- the larger of a row's length and ε
  have h12 : ∀ i : S8199.Idx, ∃ m : ℝ, 0 < m ∧ val_main_v12 (F := Ideal) x0 x2 x3 x4 i = (m : EReal) := fun i => by
    have hs : ¬ (∑ k : Fin 128, a (idx_main_v9 i k) * a (idx_main_v9 i k)) < 0 :=
      not_lt.2 (Finset.sum_nonneg fun k _ => mul_self_nonneg _)
    refine ⟨max (Real.sqrt (∑ k : Fin 128, a (idx_main_v9 i k) * a (idx_main_v9 i k))) (11258999 / 1125899906842624),
      lt_of_lt_of_le eps_pos (le_max_right _ _), ?_⟩
    rw [val_main_v12_apply, Ideal.maximumf_def, val_main_v10_apply, Ideal.hostUnary_sqrt_def, h9, Ideal.sqrt_coe, if_neg hs,
      val_main_v11_apply, val_main_cst_0_apply, Ideal.ofBits_def, Cert.Consts.ofBits_eps]
    exact (EReal.coe_strictMono.monotone.map_max).symm
  obtain ⟨m, hm, e12⟩ := h12 (idx_main_v13 (idx_main_v14 j))
  refine ⟨a j * (1 / m), ?_⟩
  rw [val_main_v15_apply, Ideal.hostDivf_def, val_main_v14_apply, val_main_v13_apply, e12, ha, Ideal.div_coe (ne_of_gt hm),
    ← EReal.coe_mul]

end Chain

/-! ## The statement -/

/-- Under the precondition the normalised rows are some real matrix, and no sample's label is the word `-1`. -/
theorem of_pre (x0 : (⟨Cert.ReferenceIdeal.S8192x128, .f32⟩ : BufTy).Contents (Elt Ideal))
    (x1 : (⟨Cert.ReferenceIdeal.S8192, .i32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) [Cert.Pre_finite_inputs.Facts]
    (h : Cert.Pre_finite_inputs.fn (F := Ideal) x0 x1 x2 x3 x4 = fun _ => 1#1) :
    (∃ r : Fin 8199 → Fin 128 → ℝ, Cert.Keys.RowsReal x0 x2 x3 x4 r)
      ∧ ∀ i : Fin 8192, x1 (Idealize.ShloMosaic.ValueIdx.ix1 i) ≠ 0xFFFFFFFF#32 := by
  obtain ⟨h0, h2, h3, h4, h1⟩ := decode x0 x1 x2 x3 x4 h
  choose f hf using normalised_real x0 x2 x3 x4 h0 h2 h3 h4
  exact ⟨⟨fun j k => f (ix2 j k), fun j k => hf (ix2 j k)⟩, h1⟩

end Cert.Finite

end
-- ==== Proof.Ratio.lean ====
/-
  Two facts about the ratio `q = P / (P + N)` and about padded sums.

  * Shifting every exponent by the same constant `M` multiplies both the positives' sum `P` and the negatives' sum
    `N` by the positive real `exp (-M)`; a quotient `p / (p + n)` is unchanged when `p` and `n` are scaled by one
    positive real — off a zero denominator by cancelling the factor, and at a zero denominator because the quotient
    by zero depends only on whether the numerator is positive, which a positive factor preserves.  So `q` does not
    depend on the shift.
  * A sum over 8320 terms whose terms from position 8199 on are all zero is the sum of its first 8199 terms.
-/
import proofs.«176555_j40235253629101_1_alg».proof.Proof.Spec
import proofs.«176555_j40235253629101_1_alg».proof.Proof.LibERealSum

noncomputable section

namespace Cert.Ratio

open Idealize.ShloMosaic

/-- `exp (s - M) = exp (-M) · exp (s - 0)`. -/
theorem exp_shift (s M : ℝ) : Real.exp (s - M) = Real.exp (-M) * Real.exp (s - 0) := by
  rw [sub_zero, ← Real.exp_add]
  congr 1
  ring

/-- The positives' sum at shift `M` is `exp (-M)` times the positives' sum at shift `0`. -/
theorem P_shift (r : Fin 8199 → Fin 128 → ℝ) (lab : Fin 8192 → BitVec 32) (kl : Fin 8199 → BitVec 32) (M : ℝ)
    (i : Fin 8192) : Cert.Spec.P r lab kl M i = Real.exp (-M) * Cert.Spec.P r lab kl 0 i := by
  unfold Cert.Spec.P
  rw [Finset.mul_sum]
  refine Finset.sum_congr rfl fun j _ => ?_
  rw [exp_shift (Cert.Spec.score r i j) M]
  ring

/-- The negatives' sum at shift `M` is `exp (-M)` times the negatives' sum at shift `0`. -/
theorem N_shift (r : Fin 8199 → Fin 128 → ℝ) (lab : Fin 8192 → BitVec 32) (kl : Fin 8199 → BitVec 32) (M : ℝ)
    (i : Fin 8192) : Cert.Spec.N r lab kl M i = Real.exp (-M) * Cert.Spec.N r lab kl 0 i := by
  unfold Cert.Spec.N
  rw [Finset.mul_sum]
  refine Finset.sum_congr rfl fun j _ => ?_
  rw [exp_shift (Cert.Spec.score r i j) M]
  ring

/-- Scaling `p` and `n` by one positive real `a` leaves `p / (p + n)` unchanged, the quotient by zero included. -/
theorem div_scale (a p n : ℝ) (ha : 0 < a) :
    Ideal.div ((a * p : ℝ) : EReal) (((a * p : ℝ) : EReal) + ((a * n : ℝ) : EReal))
      = Ideal.div ((p : ℝ) : EReal) (((p : ℝ) : EReal) + ((n : ℝ) : EReal)) := by
  rw [← EReal.coe_add, ← EReal.coe_add, ← mul_add]
  by_cases h : p + n = 0
  · -- both denominators are zero: the quotient is decided by the sign of the numerator
    rw [h, mul_zero, EReal.coe_zero]
    unfold Ideal.div
    rw [if_pos rfl, if_pos rfl]
    have hs : ((0 : EReal) < ((a * p : ℝ) : EReal)) ↔ ((0 : EReal) < ((p : ℝ) : EReal)) := by
      rw [EReal.coe_pos, EReal.coe_pos]
      exact mul_pos_iff_of_pos_left ha
    by_cases hp : (0 : EReal) < ((p : ℝ) : EReal)
    · rw [if_pos hp, if_pos (hs.mpr hp)]
    · rw [if_neg hp, if_neg (fun hq => hp (hs.mp hq))]
  · -- both denominators are nonzero reals: cancel the common factor
    have h' : a * (p + n) ≠ 0 := mul_ne_zero ha.ne' h
    rw [Ideal.div_coe h', Ideal.div_coe h, ← EReal.coe_mul, ← EReal.coe_mul]
    congr 1
    field_simp

/-- The ratio `q` does not depend on the shift. -/
theorem q_shift (r : Fin 8199 → Fin 128 → ℝ) (lab : Fin 8192 → BitVec 32) (kl : Fin 8199 → BitVec 32) (M : ℝ)
    (i : Fin 8192) : Cert.Spec.q r lab kl M i = Cert.Spec.q r lab kl 0 i := by
  unfold Cert.Spec.q
  rw [P_shift r lab kl M i, N_shift r lab kl M i]
  exact div_scale (Real.exp (-M)) (Cert.Spec.P r lab kl 0 i) (Cert.Spec.N r lab kl 0 i) (Real.exp_pos _)

/-- A sum of 8320 terms that vanish from position 8199 on is the sum of the first 8199. -/
theorem sum_pad (f : Fin 8320 → EReal) (h : ∀ j : Fin 8320, 8199 ≤ j.val → f j = 0) :
    ∑ j : Fin 8320, f j = ∑ j : Fin 8199, f ⟨j.val, by omega⟩ := by
  -- extend `f` by zero to all naturals, and read both sums as sums over initial segments of ℕ
  let g : ℕ → EReal := fun n => if hn : n < 8320 then f ⟨n, hn⟩ else 0
  have e1 : ∑ j : Fin 8320, f j = ∑ n ∈ Finset.range 8320, g n := by
    rw [← Fin.sum_univ_eq_sum_range g 8320]
    refine Finset.sum_congr rfl fun j _ => ?_
    simp only [g, dif_pos j.isLt]
  have e2 : ∑ j : Fin 8199, f ⟨j.val, by omega⟩ = ∑ n ∈ Finset.range 8199, g n := by
    rw [← Fin.sum_univ_eq_sum_range g 8199]
    refine Finset.sum_congr rfl fun j _ => ?_
    have hj : j.val < 8320 := by omega
    simp only [g, dif_pos hj]
  rw [e1, e2]
  symm
  refine Finset.sum_subset (fun n hn => ?_) (fun n hn hn' => ?_)
  · rw [Finset.mem_range] at hn ⊢
    omega
  · rw [Finset.mem_range] at hn hn'
    have hge : 8199 ≤ n := by omega
    simp only [g, dif_pos hn]
    exact h ⟨n, hn⟩ hge

end Cert.Ratio

end
-- ==== Proof.KEval.lean ====
/-
  The block the kernel body stores at one grid point, over the reals.

  At grid point t the body holds the 128 normalised sample rows 128 t … 128 t + 127 with their labels, and all 8320 key
  rows with theirs: the first 8199 are the keys, the last 121 are padding (zero rows, and a label no sample carries).
  On a key column the body's three factors are the reals of the specification: the exponential of the score (at shift
  0), the indicator that the labels agree, the indicator that the key is not the sample itself. On a padded column the
  exponential is 0 and so is the label indicator, so every product there is 0 and each row sum over the 8320 columns
  is the sum over the 8199 keys: the specification's P, N and C.
-/
import proofs.«176555_j40235253629101_1_alg».proof.Proof.KBody
import proofs.«176555_j40235253629101_1_alg».proof.Proof.Spec
import proofs.«176555_j40235253629101_1_alg».proof.Proof.Consts
import proofs.«176555_j40235253629101_1_alg».proof.Proof.LibERealSum
import proofs.«176555_j40235253629101_1_alg».proof.Proof.Ratio

noncomputable section

namespace Cert.KEval

open Cert.KernelIdeal Cert.KernelIdeal.Gen Idealize.ShloMosaic Idealize.ShloMosaic.ValueIdx

/-- Row p of the block at grid point t is sample 128 t + p. -/
def rowOf (t : ℕ) (h64 : t < 64) (p : Fin 128) : Fin 8192 := ⟨128 * t + p.val, by have := p.isLt; omega⟩

/-! ## The three factors on a key column -/

/-- The diagonal mask on a key column is the indicator that the key is not the sample itself. -/
theorem pay2_key (i : grid0.Coords) (t : ℕ) (ht : (i 0).val = t) (h64 : t < 64) (p : Fin 128) (j : Fin 8320) (j' : Fin 8199) (hjj : j.val = j'.val) :
    k0_pay2 (F := Ideal) i (ix2 p j) = ((Cert.Spec.ne (rowOf t h64 p) j' : ℝ) : EReal) := by
  rw [Cert.KBody.pay2_apply i t ht h64 p j, hjj]
  show (if 128 * t + p.val = j'.val then (0 : EReal) else ((1 : ℝ) : EReal))
    = (((if 128 * t + p.val = j'.val then 0 else 1 : ℝ)) : EReal)
  by_cases h : 128 * t + p.val = j'.val
  · rw [if_pos h, if_pos h]; exact EReal.coe_zero.symm
  · rw [if_neg h, if_neg h]

/-- The label mask on a key column is the indicator that the two labels agree. -/
theorem pay4_key (lab : Fin 8192 → BitVec 32) (kl : Fin 8199 → BitVec 32) (t : ℕ) (h64 : t < 64) (y1 : Vec Ideal S128x1 .i32) (y3 : Vec Ideal S1x8320 .i32) (h1 : ∀ (p : Fin 128) (u : Fin 1), y1 (ix2 p u) = lab (rowOf t h64 p)) (h3 : ∀ (u : Fin 1) (j : Fin 8320), y3 (ix2 u j) = if h : j.val < 8199 then kl ⟨j.val, h⟩ else 0xFFFFFFFF#32) (p : Fin 128) (j : Fin 8320) (j' : Fin 8199) (hjj : j.val = j'.val) :
    k0_pay4 (F := Ideal) y1 y3 (ix2 p j) = ((Cert.Spec.pm lab kl (rowOf t h64 p) j' : ℝ) : EReal) := by
  have hj : j.val < 8199 := by rw [hjj]; exact j'.isLt
  have e : (⟨j.val, hj⟩ : Fin 8199) = j' := Fin.ext hjj
  rw [Cert.KBody.pay4_apply y1 y3 p j, h1 p 0, h3 0 j, dif_pos hj, e]
  unfold Cert.Spec.pm
  by_cases h : lab (rowOf t h64 p) = kl j'
  · rw [if_pos h, if_pos h]
  · rw [if_neg h, if_neg h]

/-- On a key column the inner product of the two rows is the cosine. -/
theorem cos_key (r : Fin 8199 → Fin 128 → ℝ) (t : ℕ) (h64 : t < 64) (y0 : Vec Ideal S128x128 .bf16) (y2 : Vec Ideal S8320x128 .bf16) (h0 : ∀ (p k : Fin 128), y0 (ix2 p k) = ((r (Cert.Spec.qrow (rowOf t h64 p)) k : ℝ) : EReal)) (h2 : ∀ (j : Fin 8320) (k : Fin 128), y2 (ix2 j k) = if h : j.val < 8199 then ((r ⟨j.val, h⟩ k : ℝ) : EReal) else 0) (p : Fin 128) (j : Fin 8320) (j' : Fin 8199) (hjj : j.val = j'.val) :
    ∑ k : Fin 128, y0 (ix2 p k) * y2 (ix2 j k) = ((Cert.Spec.cosr r (rowOf t h64 p) j' : ℝ) : EReal) := by
  have hj : j.val < 8199 := by rw [hjj]; exact j'.isLt
  have e : (⟨j.val, hj⟩ : Fin 8199) = j' := Fin.ext hjj
  unfold Cert.Spec.cosr
  rw [Cert.LibERealSum.coe_sum]
  refine Finset.sum_congr rfl fun k _ => ?_
  rw [h0 p k, h2 j k, dif_pos hj, e, EReal.coe_mul]

/-- The exponential on a key column is the exponential of the score, at shift 0. -/
theorem pay3_key (r : Fin 8199 → Fin 128 → ℝ) (i : grid0.Coords) (t : ℕ) (ht : (i 0).val = t) (h64 : t < 64) (y0 : Vec Ideal S128x128 .bf16) (y2 : Vec Ideal S8320x128 .bf16) (h0 : ∀ (p k : Fin 128), y0 (ix2 p k) = ((r (Cert.Spec.qrow (rowOf t h64 p)) k : ℝ) : EReal)) (h2 : ∀ (j : Fin 8320) (k : Fin 128), y2 (ix2 j k) = if h : j.val < 8199 then ((r ⟨j.val, h⟩ k : ℝ) : EReal) else 0) (p : Fin 128) (j : Fin 8320) (j' : Fin 8199) (hjj : j.val = j'.val) :
    k0_pay3 (F := Ideal) i y0 y2 (ix2 p j) = ((Real.exp (Cert.Spec.score r (rowOf t h64 p) j' - 0) : ℝ) : EReal) := by
  have hj : j.val < 8199 := by rw [hjj]; exact j'.isLt
  rw [Cert.KBody.pay3_apply i y0 y2 p j, if_pos hj, pay2_key i t ht h64 p j j' hjj,
    cos_key r t h64 y0 y2 h0 h2 p j j' hjj,
    ← EReal.coe_add, ← EReal.coe_mul, ← EReal.coe_add, ← EReal.coe_mul, ← EReal.coe_mul, sub_zero]
  refine (Ideal.exp_coe _).trans ?_
  rfl

/-! ## The padded columns -/

/-- On a padded column the exponential is 0. -/
theorem pay3_pad (i : grid0.Coords) (y0 : Vec Ideal S128x128 .bf16) (y2 : Vec Ideal S8320x128 .bf16) (p : Fin 128) (j : Fin 8320) (hj : 8199 ≤ j.val) : k0_pay3 (F := Ideal) i y0 y2 (ix2 p j) = 0 := by
  rw [Cert.KBody.pay3_apply i y0 y2 p j, if_neg (by omega)]

/-- On a padded column the label mask is 0: the padding's label is no sample's. -/
theorem pay4_pad (lab : Fin 8192 → BitVec 32) (kl : Fin 8199 → BitVec 32) (hl : ∀ i, lab i ≠ 0xFFFFFFFF#32) (t : ℕ) (h64 : t < 64) (y1 : Vec Ideal S128x1 .i32) (y3 : Vec Ideal S1x8320 .i32) (h1 : ∀ (p : Fin 128) (u : Fin 1), y1 (ix2 p u) = lab (rowOf t h64 p)) (h3 : ∀ (u : Fin 1) (j : Fin 8320), y3 (ix2 u j) = if h : j.val < 8199 then kl ⟨j.val, h⟩ else 0xFFFFFFFF#32) (p : Fin 128) (j : Fin 8320) (hj : 8199 ≤ j.val) :
    k0_pay4 (F := Ideal) y1 y3 (ix2 p j) = 0 := by
  rw [Cert.KBody.pay4_apply y1 y3 p j, h1 p 0, h3 0 j, dif_neg (by omega), if_neg (hl _)]
  exact EReal.coe_zero

/-! ## The three row sums -/

/-- The positives' sum of row p over the 8320 columns is the specification's P at shift 0. -/
theorem rowP (r : Fin 8199 → Fin 128 → ℝ) (lab : Fin 8192 → BitVec 32) (kl : Fin 8199 → BitVec 32) (i : grid0.Coords) (t : ℕ) (ht : (i 0).val = t) (h64 : t < 64) (y0 : Vec Ideal S128x128 .bf16) (y1 : Vec Ideal S128x1 .i32) (y2 : Vec Ideal S8320x128 .bf16) (y3 : Vec Ideal S1x8320 .i32) (h0 : ∀ (p k : Fin 128), y0 (ix2 p k) = ((r (Cert.Spec.qrow (rowOf t h64 p)) k : ℝ) : EReal)) (h1 : ∀ (p : Fin 128) (u : Fin 1), y1 (ix2 p u) = lab (rowOf t h64 p)) (h2 : ∀ (j : Fin 8320) (k : Fin 128), y2 (ix2 j k) = if h : j.val < 8199 then ((r ⟨j.val, h⟩ k : ℝ) : EReal) else 0) (h3 : ∀ (u : Fin 1) (j : Fin 8320), y3 (ix2 u j) = if h : j.val < 8199 then kl ⟨j.val, h⟩ else 0xFFFFFFFF#32) (p : Fin 128) :
    ∑ j : Fin 8320, k0_pay3 (F := Ideal) i y0 y2 (ix2 p j) * k0_pay4 (F := Ideal) y1 y3 (ix2 p j) * k0_pay2 (F := Ideal) i (ix2 p j)
      = ((Cert.Spec.P r lab kl 0 (rowOf t h64 p) : ℝ) : EReal) := by
  refine (Cert.Ratio.sum_pad (fun j => k0_pay3 (F := Ideal) i y0 y2 (ix2 p j) * k0_pay4 (F := Ideal) y1 y3 (ix2 p j)
    * k0_pay2 (F := Ideal) i (ix2 p j)) (fun j hj => ?_)).trans ?_
  · show k0_pay3 (F := Ideal) i y0 y2 (ix2 p j) * k0_pay4 (F := Ideal) y1 y3 (ix2 p j) * k0_pay2 (F := Ideal) i (ix2 p j) = 0
    rw [pay3_pad i y0 y2 p j hj, zero_mul, zero_mul]
  · unfold Cert.Spec.P
    rw [Cert.LibERealSum.coe_sum]
    refine Finset.sum_congr rfl fun j _ => ?_
    have hlt : j.val < 8320 := by have := j.isLt; omega
    show k0_pay3 (F := Ideal) i y0 y2 (ix2 p ⟨j.val, hlt⟩) * k0_pay4 (F := Ideal) y1 y3 (ix2 p ⟨j.val, hlt⟩)
        * k0_pay2 (F := Ideal) i (ix2 p ⟨j.val, hlt⟩) = _
    rw [pay3_key r i t ht h64 y0 y2 h0 h2 p ⟨j.val, hlt⟩ j rfl, pay4_key lab kl t h64 y1 y3 h1 h3 p ⟨j.val, hlt⟩ j rfl,
      pay2_key i t ht h64 p ⟨j.val, hlt⟩ j rfl, ← EReal.coe_mul, ← EReal.coe_mul]

/-- The negatives' sum of row p over the 8320 columns is the specification's N at shift 0. -/
theorem rowN (r : Fin 8199 → Fin 128 → ℝ) (lab : Fin 8192 → BitVec 32) (kl : Fin 8199 → BitVec 32) (i : grid0.Coords) (t : ℕ) (ht : (i 0).val = t) (h64 : t < 64) (y0 : Vec Ideal S128x128 .bf16) (y1 : Vec Ideal S128x1 .i32) (y2 : Vec Ideal S8320x128 .bf16) (y3 : Vec Ideal S1x8320 .i32) (h0 : ∀ (p k : Fin 128), y0 (ix2 p k) = ((r (Cert.Spec.qrow (rowOf t h64 p)) k : ℝ) : EReal)) (h1 : ∀ (p : Fin 128) (u : Fin 1), y1 (ix2 p u) = lab (rowOf t h64 p)) (h2 : ∀ (j : Fin 8320) (k : Fin 128), y2 (ix2 j k) = if h : j.val < 8199 then ((r ⟨j.val, h⟩ k : ℝ) : EReal) else 0) (h3 : ∀ (u : Fin 1) (j : Fin 8320), y3 (ix2 u j) = if h : j.val < 8199 then kl ⟨j.val, h⟩ else 0xFFFFFFFF#32) (p : Fin 128) :
    ∑ j : Fin 8320, k0_pay3 (F := Ideal) i y0 y2 (ix2 p j) * (((1 : ℝ) : EReal) - k0_pay4 (F := Ideal) y1 y3 (ix2 p j))
      = ((Cert.Spec.N r lab kl 0 (rowOf t h64 p) : ℝ) : EReal) := by
  refine (Cert.Ratio.sum_pad (fun j => k0_pay3 (F := Ideal) i y0 y2 (ix2 p j)
    * (((1 : ℝ) : EReal) - k0_pay4 (F := Ideal) y1 y3 (ix2 p j))) (fun j hj => ?_)).trans ?_
  · show k0_pay3 (F := Ideal) i y0 y2 (ix2 p j) * (((1 : ℝ) : EReal) - k0_pay4 (F := Ideal) y1 y3 (ix2 p j)) = 0
    rw [pay3_pad i y0 y2 p j hj, zero_mul]
  · unfold Cert.Spec.N
    rw [Cert.LibERealSum.coe_sum]
    refine Finset.sum_congr rfl fun j _ => ?_
    have hlt : j.val < 8320 := by have := j.isLt; omega
    show k0_pay3 (F := Ideal) i y0 y2 (ix2 p ⟨j.val, hlt⟩)
        * (((1 : ℝ) : EReal) - k0_pay4 (F := Ideal) y1 y3 (ix2 p ⟨j.val, hlt⟩)) = _
    rw [pay3_key r i t ht h64 y0 y2 h0 h2 p ⟨j.val, hlt⟩ j rfl, pay4_key lab kl t h64 y1 y3 h1 h3 p ⟨j.val, hlt⟩ j rfl,
      ← EReal.coe_sub, ← EReal.coe_mul]

/-- The count of positives of row p over the 8320 columns is the specification's C. -/
theorem rowC (lab : Fin 8192 → BitVec 32) (kl : Fin 8199 → BitVec 32) (hl : ∀ i, lab i ≠ 0xFFFFFFFF#32) (i : grid0.Coords) (t : ℕ) (ht : (i 0).val = t) (h64 : t < 64) (y1 : Vec Ideal S128x1 .i32) (y3 : Vec Ideal S1x8320 .i32) (h1 : ∀ (p : Fin 128) (u : Fin 1), y1 (ix2 p u) = lab (rowOf t h64 p)) (h3 : ∀ (u : Fin 1) (j : Fin 8320), y3 (ix2 u j) = if h : j.val < 8199 then kl ⟨j.val, h⟩ else 0xFFFFFFFF#32) (p : Fin 128) :
    ∑ j : Fin 8320, k0_pay4 (F := Ideal) y1 y3 (ix2 p j) * k0_pay2 (F := Ideal) i (ix2 p j)
      = ((Cert.Spec.C lab kl (rowOf t h64 p) : ℝ) : EReal) := by
  refine (Cert.Ratio.sum_pad (fun j => k0_pay4 (F := Ideal) y1 y3 (ix2 p j) * k0_pay2 (F := Ideal) i (ix2 p j))
    (fun j hj => ?_)).trans ?_
  · show k0_pay4 (F := Ideal) y1 y3 (ix2 p j) * k0_pay2 (F := Ideal) i (ix2 p j) = 0
    rw [pay4_pad lab kl hl t h64 y1 y3 h1 h3 p j hj, zero_mul]
  · unfold Cert.Spec.C
    rw [Cert.LibERealSum.coe_sum]
    refine Finset.sum_congr rfl fun j _ => ?_
    have hlt : j.val < 8320 := by have := j.isLt; omega
    show k0_pay4 (F := Ideal) y1 y3 (ix2 p ⟨j.val, hlt⟩) * k0_pay2 (F := Ideal) i (ix2 p ⟨j.val, hlt⟩) = _
    rw [pay4_key lab kl t h64 y1 y3 h1 h3 p ⟨j.val, hlt⟩ j rfl, pay2_key i t ht h64 p ⟨j.val, hlt⟩ j rfl, ← EReal.coe_mul]

/-! ## The stored block -/

/-- THE BLOCK: at grid point t, row p of the stored block holds the specification's three row sums of sample
    128 t + p, the exponentials unshifted. -/
theorem block_rows (r : Fin 8199 → Fin 128 → ℝ) (lab : Fin 8192 → BitVec 32) (kl : Fin 8199 → BitVec 32) (hl : ∀ i, lab i ≠ 0xFFFFFFFF#32) (i : grid0.Coords) (t : ℕ) (ht : (i 0).val = t) (h64 : t < 64) (y0 : Vec Ideal S128x128 .bf16) (y1 : Vec Ideal S128x1 .i32) (y2 : Vec Ideal S8320x128 .bf16) (y3 : Vec Ideal S1x8320 .i32)
    (h0 : ∀ (p k : Fin 128), y0 (ix2 p k) = ((r (Cert.Spec.qrow (rowOf t h64 p)) k : ℝ) : EReal))
    (h1 : ∀ (p : Fin 128) (u : Fin 1), y1 (ix2 p u) = lab (rowOf t h64 p))
    (h2 : ∀ (j : Fin 8320) (k : Fin 128), y2 (ix2 j k) = if h : j.val < 8199 then ((r ⟨j.val, h⟩ k : ℝ) : EReal) else 0)
    (h3 : ∀ (u : Fin 1) (j : Fin 8320), y3 (ix2 u j) = if h : j.val < 8199 then kl ⟨j.val, h⟩ else 0xFFFFFFFF#32) (p : Fin 128) :
    k0_pay1 (F := Ideal) (k0_pay2 (F := Ideal) i) (k0_pay3 i y0 y2) (k0_pay4 y1 y3) (k0_pay5 i y0 y2 y1 y3) (ix2 (0 : Fin 3) p) = ((Cert.Spec.P r lab kl 0 (rowOf t h64 p) : ℝ) : EReal)
    ∧ k0_pay1 (F := Ideal) (k0_pay2 (F := Ideal) i) (k0_pay3 i y0 y2) (k0_pay4 y1 y3) (k0_pay5 i y0 y2 y1 y3) (ix2 (1 : Fin 3) p) = ((Cert.Spec.N r lab kl 0 (rowOf t h64 p) : ℝ) : EReal)
    ∧ k0_pay1 (F := Ideal) (k0_pay2 (F := Ideal) i) (k0_pay3 i y0 y2) (k0_pay4 y1 y3) (k0_pay5 i y0 y2 y1 y3) (ix2 (2 : Fin 3) p) = ((Cert.Spec.C lab kl (rowOf t h64 p) : ℝ) : EReal) := by
  obtain ⟨e0, e1, e2⟩ := Cert.KBody.pay1_apply (k0_pay2 (F := Ideal) i) (k0_pay3 (F := Ideal) i y0 y2)
    (k0_pay4 (F := Ideal) y1 y3) (k0_pay5 (F := Ideal) i y0 y2 y1 y3) p
  refine ⟨?_, ?_, ?_⟩
  · refine e0.trans ((Cert.KBody.pay5_apply i y0 y2 y1 y3 p).trans ?_)
    exact rowP r lab kl i t ht h64 y0 y1 y2 y3 h0 h1 h2 h3 p
  · exact e1.trans (rowN r lab kl i t ht h64 y0 y1 y2 y3 h0 h1 h2 h3 p)
  · exact e2.trans (rowC lab kl hl i t ht h64 y1 y3 h1 h3 p)

end Cert.KEval

end
-- ==== Proof.Tail.lean ====
/-
  The closing operations, shared by the two programs.

  Both programs end with the same operations on two vectors over the 8192 samples, the share `q` of the positives and
  their number `cnt`: `v = q / (cnt + ε)`, the loss `lv = -log (v + ε)`, the mask of the samples with `lv > 0.3`, and
  the masked mean `(Σ lv · msk) / (Σ msk + ε)`.  They are stated once, as one function `tail` of `q` and `cnt`; the
  reference's result is `tail` of its own `q` and `cnt`, and the kernel program's result is `tail` of the share
  `P / (P + N)` and the count read off the three rows `P`, `N`, `cnt` of the `[3, 8192]` array the region leaves.
-/
import proofs.«176555_j40235253629101_1_alg».proof.Proof.KernelIdealFrame
import proofs.«176555_j40235253629101_1_alg».proof.Proof.Gen.ReferenceIdeal.Read
import proofs.«176555_j40235253629101_1_alg».proof.Proof.Consts
import proofs.«176555_j40235253629101_1_alg».proof.Proof.LibIdx
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.ValueLayout
import Idealize.ShloMosaic.PureOps.Ideal

noncomputable section

namespace Cert.Tail

open Idealize.ShloMosaic Idealize.ShloMosaic.ValueIdx

/-! ## The closing operations as one function

From the share `q` of the positives and their number `cnt`, sample by sample: `v = q / (cnt + ε)`, the loss
`lv = -log (v + ε)`, the mask `msk` that is `1` where `lv > 0.3` and `0` elsewhere, and the result
`(Σ lv · msk) / (Σ msk + ε)`, both sums started from `0`. -/

section Def

open Cert.ReferenceIdeal Cert.ReferenceIdeal.Gen

/-- A function of the sample number as a vector over the samples. -/
def vec (q : Fin 8192 → EReal) : FVec Ideal S8192 .f32 := fun i => q ⟨(i 0).val, (i 0).isLt⟩

/-- The constant `ε` at every sample. -/
def epsV : FVec Ideal S8192 .f32 :=
  broadcastInDim S8192 ![] bcast_S_S8192 (constant (F := Ideal) S_ .f32 0x322BCC77#32)

/-- The loss `-log (q / (cnt + ε) + ε)`, sample by sample. -/
def lossV (Q C : FVec Ideal S8192 .f32) : FVec Ideal S8192 .f32 :=
  Host.negf (F := Ideal) (Host.log (F := Ideal) (addf (F := Ideal) (Host.divf (F := Ideal) Q (addf (F := Ideal) C epsV)) epsV))

/-- The mask: `1` where the loss exceeds `0.3`, `0` elsewhere. -/
def maskV (Q C : FVec Ideal S8192 .f32) : FVec Ideal S8192 .f32 :=
  uitofp (F := Ideal) .f32 (cmpf (F := Ideal) .ogt (lossV Q C)
    (broadcastInDim S8192 ![] bcast_S_S8192 (constant (F := Ideal) S_ .f32 0x3E99999A#32)))

/-- The closing operations on two vectors: the masked losses' sum over the mask's sum plus `ε`. -/
def tailV (Q C : FVec Ideal S8192 .f32) : FVec Ideal S_ .f32 :=
  Host.divf (F := Ideal)
    (Host.reduceAdd (F := Ideal) (mulf (F := Ideal) (lossV Q C) (maskV Q C)) (constant (F := Ideal) S_ .f32 0x00000000#32)
      reducesTo_S8192_S_d0 h_S_)
    (addf (F := Ideal)
      (Host.reduceAdd (F := Ideal) (maskV Q C) (constant (F := Ideal) S_ .f32 0x00000000#32) reducesTo_S8192_S_d0 h_S_)
      (constant (F := Ideal) S_ .f32 0x322BCC77#32))

/-- The closing operations on the share of the positives `q` and their number `cnt`. -/
def tail (q cnt : Fin 8192 → EReal) : (⟨0, ![]⟩ : Shape).Idx → EReal := tailV (vec q) (vec cnt)

/-- A vector read sample by sample and put back is the vector. -/
theorem vec_ix1 (Q : FVec Ideal S8192 .f32) : vec (fun i => Q (ix1 i)) = Q :=
  funext fun j => congrArg Q (eq_ix1 j).symm

end Def

/-! ## The reference's closing operations -/

section Ref

open Cert.ReferenceIdeal Cert.ReferenceIdeal.Gen Cert.ReferenceIdeal.Read

/-- The reference's result is the closing operations on its share of the positives and its count. -/
theorem ref_tail (x0 : (⟨Cert.ReferenceIdeal.S8192x128, .f32⟩ : BufTy).Contents (Elt Ideal))
    (x1 : (⟨Cert.ReferenceIdeal.S8192, .i32⟩ : BufTy).Contents (Elt Ideal))
    (x2 : (⟨Cert.ReferenceIdeal.S7x256, .f32⟩ : BufTy).Contents (Elt Ideal))
    (x3 : (⟨Cert.ReferenceIdeal.S128x256, .f32⟩ : BufTy).Contents (Elt Ideal))
    (x4 : (⟨Cert.ReferenceIdeal.S128, .f32⟩ : BufTy).Contents (Elt Ideal)) :
    Cert.ReferenceIdeal.Read.val_main_v75 (F := Ideal) x0 x1 x2 x3 x4
      = tail (fun i => Cert.ReferenceIdeal.Read.val_main_v58 (F := Ideal) x0 x1 x2 x3 x4 (ix1 i))
          (fun i => Cert.ReferenceIdeal.Read.val_main_v60 (F := Ideal) x1 (ix1 i)) := by
  unfold tail
  rw [vec_ix1, vec_ix1]
  unfold val_main_v75 val_main_v74 val_main_v73 val_main_v72 val_main_v71 val_main_v70 val_main_v69 val_main_v68 val_main_v67
    val_main_v66 val_main_v65 val_main_v64 val_main_v63 val_main_v62 val_main_v61
    val_main_cst_12 val_main_cst_13 val_main_cst_14 val_main_cst_15 val_main_cst_16 val_main_cst_17
  generalize val_main_v58 (F := Ideal) x0 x1 x2 x3 x4 = Q
  generalize val_main_v60 (F := Ideal) x1 = C
  rfl

end Ref

/-! ## The kernel program's closing operations

After the region the kernel program cuts the region's `[3, 8192]` result into its three rows — the positives' sum,
the negatives' sum and the positives' number —, forms the share `P / (P + N)`, and applies the same closing operations. -/

section Kernel

open Cert.KernelIdeal Cert.KernelIdeal.Gen

/-- Row `p` of an `[a, b]` array, cut out as a `[1, b]` slice at row offset `o = p` and flattened to a `[b]` vector,
    reads at column `k` the array's entry `(p, k)`. -/
theorem row_apply {α : Type} {a b : ℕ} (o : ℕ) (v : (⟨2, ![a, b]⟩ : Shape).Idx → α)
    (hs : (⟨2, ![a, b]⟩ : Shape).Slices ![o, 0] ⟨2, ![1, b]⟩) (hc : (⟨2, ![1, b]⟩ : Shape).ShapeCasts ⟨1, ![b]⟩)
    (p : Fin a) (k : Fin b) (hp : p.val = o) :
    shapeCast ⟨1, ![b]⟩ (extractStridedSlice ⟨2, ![1, b]⟩ ![o, 0] v hs) hc (ix1 k) = v (ix2 p k) :=
  (shapeCast_1a_a_apply _ hc k).trans (slice2_axis0_apply o v hs (0 : Fin 1) k p (by show p.val = o + 0; omega))

/-- Row `p` of the `[3, 8192]` array as a vector over the samples. -/
theorem row_vec (o : ℕ) (p : Fin 3) (hp : p.val = o) (A : S3x8192.Idx → EReal)
    (hs : S3x8192.Slices ![o, 0] S1x8192) (hc : S1x8192.ShapeCasts S8192) :
    (fun i => shapeCast S8192 (extractStridedSlice S1x8192 ![o, 0] A hs) hc i) = vec (fun i => A (ix2 p i)) := by
  funext j
  obtain ⟨i, rfl⟩ : ∃ i : Fin 8192, j = ix1 i := ⟨j 0, eq_ix1 j⟩
  exact row_apply o A hs hc p i hp

/-- The kernel program's result is the closing operations on the share `P / (P + N)` and the count, read off the three
    rows of the region's result. -/
theorem kernel_tail (m : (ℓ : Loc Cert.KernelIdeal.nD Cert.KernelIdeal.τ Cert.KernelIdeal.sig) → Buf (Elt Ideal) ℓ)
    (c : Dev Cert.KernelIdeal.nD) (A : Cert.KernelIdeal.S3x8192.Idx → EReal)
    (hA : (Cert.KernelIdeal.GenP.dats m 0 c).arrAt 4 Cert.KernelIdeal.cfg0.N = A) :
    Pipeline.afterTail₀ Cert.KernelIdeal.cfgs (Cert.KernelIdeal.GenP.dats m) 0 (Cert.KernelIdeal.GenP.V0 m)
        [Cert.KernelIdeal.Gen.hostOps1] c Cert.KernelIdeal.main_v47
      = tail (fun i => Ideal.div (A (ix2 (0 : Fin 3) i)) (A (ix2 (0 : Fin 3) i) + A (ix2 (1 : Fin 3) i)))
          (fun i => A (ix2 (2 : Fin 3) i)) := by
  unfold Pipeline.afterTail₀
  -- after the region the valuation holds `A` at the region's result
  have e24 : Pipeline.withArrays (cfgs 0).spec c (Cert.KernelIdeal.GenP.V0 m c)
      (fun w => (Cert.KernelIdeal.GenP.dats m 0 c).arrAt w (cfgs 0).N) (Proc.devRef .tc main_v24) = A :=
    (Pipeline.withArrays_arr spec0 launch0.win.arr_inj c (Cert.KernelIdeal.GenP.V0 m c)
      (fun w => (Cert.KernelIdeal.GenP.dats m 0 c).arrAt w (cfgs 0).N) 4).trans hA
  generalize Pipeline.withArrays (cfgs 0).spec c (Cert.KernelIdeal.GenP.V0 m c)
      (fun w => (Cert.KernelIdeal.GenP.dats m 0 c).arrAt w (cfgs 0).N) = W at e24 ⊢
  show StableHlo.after hostOps1 W (Proc.devRef .tc main_v47) = _
  after_results_simp
  rw [e24]
  -- the three rows, and the share of the positives
  have h0 := row_vec 0 0 rfl A slices_S3x8192_S1x8192_0_0 shapeCasts_S1x8192_S8192
  have h1 := row_vec 1 1 rfl A slices_S3x8192_S1x8192_1_0 shapeCasts_S1x8192_S8192
  have h2 := row_vec 2 2 rfl A slices_S3x8192_S1x8192_2_0 shapeCasts_S1x8192_S8192
  have hq : Host.divf (F := Ideal) (vec fun i => A (ix2 (0 : Fin 3) i))
        (addf (F := Ideal) (vec fun i => A (ix2 (0 : Fin 3) i)) (vec fun i => A (ix2 (1 : Fin 3) i)))
      = vec (fun i => Ideal.div (A (ix2 (0 : Fin 3) i)) (A (ix2 (0 : Fin 3) i) + A (ix2 (1 : Fin 3) i))) := rfl
  unfold tail
  rw [← hq, ← h0, ← h1, ← h2]
  rfl

end Kernel

end Cert.Tail

end
-- ==== Proof.Bridge.lean ====
/- The two idealized programs end with equal results.

   Under the precondition every normalised row is real and no sample label is the padding label. Then at every sample
   the kernel's three row sums are the specification's sums with no shift, the reference's are the specification's sums
   shifted by the largest score, the share of the positives does not depend on the shift, and both programs finish with
   the same operations on the share and the count. -/
import proofs.«176555_j40235253629101_1_alg».proof.Defs
import proofs.«176555_j40235253629101_1_alg».proof.Proof.KStats
import proofs.«176555_j40235253629101_1_alg».proof.Proof.KernelInputs
import proofs.«176555_j40235253629101_1_alg».proof.Proof.RefSide
import proofs.«176555_j40235253629101_1_alg».proof.Proof.Finite
import proofs.«176555_j40235253629101_1_alg».proof.Proof.Ratio
import proofs.«176555_j40235253629101_1_alg».proof.Proof.KEval
import proofs.«176555_j40235253629101_1_alg».proof.Proof.Tail
import proofs.«176555_j40235253629101_1_alg».proof.Proof.Gen.Pre_finite_inputs
import proofs.«176555_j40235253629101_1_alg».proof.Proof.Gen.ReferenceIdeal.Run
import proofs.«176555_j40235253629101_1_alg».proof.Proof.Gen.ReferenceIdeal.Read

noncomputable section

namespace Cert.Bridge

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ)

/-! ## The stored array, entry by entry -/

/-- With the arrays the region finds read as the normalised rows and the labels, entry `(a, i)` of the array the kernel
    writes is row sum `a` of sample `i`, with no shift. -/
theorem G_rows (c : Dev nD) (r : Fin 8199 → Fin 128 → ℝ) (lab : Fin 8192 → BitVec 32) (kl : Fin 8199 → BitVec 32)
    (hl : ∀ i, lab i ≠ 0xFFFFFFFF#32)
    (H0 : ∀ (i : Fin 8192) (k : Fin 128), (V m c main_v22 : S8192x128.Idx → EReal) (ix2 i k) = ((r (Cert.Spec.qrow i) k : ℝ) : EReal))
    (H1 : ∀ (i : Fin 8192) (u : Fin 1), (V m c main_v23 : S8192x1.Idx → BitVec 32) (ix2 i u) = lab i)
    (H2 : ∀ (j : Fin 8320) (k : Fin 128), (V m c main_v20 : S8320x128.Idx → EReal) (ix2 j k) = if h : j.val < 8199 then ((r ⟨j.val, h⟩ k : ℝ) : EReal) else 0)
    (H3 : ∀ (u : Fin 1) (j : Fin 8320), (V m c main_v21 : S1x8320.Idx → BitVec 32) (ix2 u j) = if h : j.val < 8199 then kl ⟨j.val, h⟩ else 0xFFFFFFFF#32)
    (i : Fin 8192) :
    Cert.KStats.G m c (ix2 (0 : Fin 3) i) = ((Cert.Spec.P r lab kl 0 i : ℝ) : EReal)
    ∧ Cert.KStats.G m c (ix2 (1 : Fin 3) i) = ((Cert.Spec.N r lab kl 0 i : ℝ) : EReal)
    ∧ Cert.KStats.G m c (ix2 (2 : Fin 3) i) = ((Cert.Spec.C lab kl i : ℝ) : EReal) := by
  -- the point that stores sample i, and the sample's place in its block
  have hi := i.isLt
  let t : Fin cfg0.N := ⟨i.val / 128, by rw [show cfg0.N = 64 from N_0]; omega⟩
  let p : Fin 128 := ⟨i.val % 128, Nat.mod_lt _ (by norm_num)⟩
  have h64 : t.val < 64 := Cert.KStats.lt64 t
  have hco : (grid0.coords t (0 : Fin 1)).val = t.val := (Cert.KStats.idx_facts t).2.2.2.2.2.2.2.2.2.2
  have hrow : ∀ q : Fin 128, Cert.KStats.row t q = Cert.KEval.rowOf t.val h64 q := fun q => rfl
  have hi' : Cert.KEval.rowOf t.val h64 p = i := Fin.ext (by show 128 * (i.val / 128) + i.val % 128 = i.val; omega)
  have B := Cert.KEval.block_rows r lab kl hl (grid0.coords t) t.val hco h64 (iblk m c 0 t) (iblk m c 1 t) (iblk m c 2 t) (iblk m c 3 t)
    (fun q k => (Cert.KStats.iblk0_apply m c t q k).trans (H0 _ k))
    (fun q u => (Cert.KStats.iblk1_apply m c t q u).trans (H1 _ u))
    (fun j k => (Cert.KStats.iblk2_apply m c t j k).trans (H2 j k))
    (fun u j => (Cert.KStats.iblk3_apply m c t u j).trans (H3 u j)) p
  rw [hi', ← Cert.KStats.out_eq] at B
  exact B

/-! ## The arrays the region finds, under the precondition -/

/-- With the reference's normalised rows real (`r`), the kernel's four operands read: the samples' rows and all key rows
    as `r` (zero on the padding), the labels as the reference's (the all-ones word on the padding). -/
theorem inputs (c : Dev nD) (r : Fin 8199 → Fin 128 → ℝ)
    (hr : Cert.Keys.RowsReal (m ((c : Thread nD τ).loc main_arg0)) (m ((c : Thread nD τ).loc main_arg2)) (m ((c : Thread nD τ).loc main_arg3)) (m ((c : Thread nD τ).loc main_arg4)) r) :
    (∀ (i : Fin 8192) (k : Fin 128), (V m c main_v22 : S8192x128.Idx → EReal) (ix2 i k) = ((r (Cert.Spec.qrow i) k : ℝ) : EReal))
    ∧ (∀ (i : Fin 8192) (u : Fin 1), (V m c main_v23 : S8192x1.Idx → BitVec 32) (ix2 i u) = Cert.Keys.lab (m ((c : Thread nD τ).loc main_arg1)) i)
    ∧ (∀ (j : Fin 8320) (k : Fin 128), (V m c main_v20 : S8320x128.Idx → EReal) (ix2 j k) = if h : j.val < 8199 then ((r ⟨j.val, h⟩ k : ℝ) : EReal) else 0)
    ∧ (∀ (u : Fin 1) (j : Fin 8320), (V m c main_v21 : S1x8320.Idx → BitVec 32) (ix2 u j)
        = if h : j.val < 8199 then Cert.Keys.kl (m ((c : Thread nD τ).loc main_arg1)) ⟨j.val, h⟩ else 0xFFFFFFFF#32) := by
  have H2 : ∀ (j : Fin 8320) (k : Fin 128), (V m c main_v20 : S8320x128.Idx → EReal) (ix2 j k)
      = if h : j.val < 8199 then ((r ⟨j.val, h⟩ k : ℝ) : EReal) else 0 := by
    intro j k
    rw [Cert.KernelInputs.x2_apply m c j k]
    by_cases h : j.val < 8199
    · rw [dif_pos h, dif_pos h, Cert.KernelInputs.rows_eq m c]; exact hr ⟨j.val, h⟩ k
    · rw [dif_neg h, dif_neg h]
  refine ⟨fun i k => ?_, fun i u => ?_, H2, fun u j => ?_⟩
  · rw [Cert.KernelInputs.x0_apply m c i k, H2, dif_pos (by have := i.isLt; show i.val < 8199; omega)]; rfl
  · rw [Cert.KernelInputs.x1_apply m c i u]; rfl
  · rw [Cert.KernelInputs.x3_apply m c u j]
    by_cases h : j.val < 8199
    · rw [dif_pos h, dif_pos h, Cert.KernelInputs.keys_eq m c]; rfl
    · rw [dif_neg h, dif_neg h]

/-! ## The two results -/

/-- The reference's result, from a memory agreeing with the kernel's on the arguments, is the kernel's. -/
theorem results_eq (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4)) :
    Cert.ReferenceIdeal.Value.res_main_v75 (F := Ideal) m' c
      = Pipeline.afterTail₀ cfgs (dats m) 0 (V0 m) [hostOps1] c main_v47 := by
  obtain ⟨⟨r, hr⟩, hl⟩ := Cert.Finite.of_pre (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (hpre c)
  obtain ⟨H0, H1, H2, H3⟩ := inputs m c r hr
  obtain ⟨M, hq, hc⟩ := Cert.RefSide.ref_rows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) r hr
  have hG := G_rows m c r (Cert.Keys.lab (m ((c.tc : Thread nD τ).loc main_arg1))) (Cert.Keys.kl (m ((c.tc : Thread nD τ).loc main_arg1)))
    (fun i => hl i) H0 H1 H2 H3
  rw [Cert.Tail.kernel_tail m c (Cert.KStats.G m c) (Cert.KStats.final m c), Cert.ReferenceIdeal.Read.val_main_v75_eq, e0, e1, e2, e3, e4,
    Cert.Tail.ref_tail]
  refine congrArg₂ Cert.Tail.tail (funext fun i => ?_) (funext fun i => ?_)
  · rw [hq i, Cert.Ratio.q_shift, (hG i).1, (hG i).2.1]
    rfl
  · rw [hc i, (hG i).2.2]

/-! ## The claim -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ cfgs (dats m) 0 (V0 m) [hostOps1] c main_v47, ?_, ?_⟩
  · exact (θ_run defs _ _).mono (fun _ h c =>
      ⟨(h c).2 main_v47 (Pipeline.mem_restRefs_of main_v47 (by decide) (by decide)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
      (run_main m ρ)
  · exact (θ_run Cert.ReferenceIdeal.defs _ _).mono (fun _ h c =>
      ⟨(h c).1.trans (results_eq m m' hpre c (hagree c).1 (hagree c).2.1 (hagree c).2.2.1 (hagree c).2.2.2.1 (hagree c).2.2.2.2), (h c).2⟩)
      (Cert.ReferenceIdeal.Value.run (F := Ideal) m' ρ')

end Cert.Bridge

end
-- ==== Proof.lean ====
/- The certificate's five claims, assembled.

   The kernel computes, for each of 8192 samples, three sums over the 8199 keys (the samples themselves and 7 class
   centres, all rows normalised to unit length): the exponentials of the scores of the keys that carry the sample's label
   (the sample itself left out), of the keys that do not, and the number of the former; a loss is then computed from the
   share of the first sum in the total. The reference computes the same sums with every score shifted by the largest one.

   * The three programs run to the end and leave their arguments as they were: the kernel and its idealization by the
     frame run of their one pipelined region, the reference by its host run.
   * The idealized kernel is the kernel with two constants read by name: the reciprocal of the temperature as the exact
     reciprocal of the reference's temperature word, and the fill of the padded key columns as the bottom element.
   * The idealized kernel and the idealized reference end with equal results (Proof/Bridge.lean): a common shift of the
     scores cancels in the share, the padded columns contribute the exponential of the bottom element, which is zero,
     and the two programs finish with the same operations. -/
import proofs.«176555_j40235253629101_1_alg».proof.Defs
import proofs.«176555_j40235253629101_1_alg».proof.Proof.Gen.Kernel
import proofs.«176555_j40235253629101_1_alg».proof.Proof.Gen.KernelIdeal
import proofs.«176555_j40235253629101_1_alg».proof.Proof.Gen.ReferenceIdeal
import proofs.«176555_j40235253629101_1_alg».proof.Proof.Gen.Pre_finite_inputs
import proofs.«176555_j40235253629101_1_alg».proof.Proof.KernelFrame
import proofs.«176555_j40235253629101_1_alg».proof.Proof.KernelIdealFrame
import proofs.«176555_j40235253629101_1_alg».proof.Proof.Gen.ReferenceIdeal.Run
import proofs.«176555_j40235253629101_1_alg».proof.Proof.Gen.ReferenceIdeal.Read
import proofs.«176555_j40235253629101_1_alg».proof.Proof.Bridge
import Idealize.ShloMosaic.Adequacy
import Idealize.ShloMosaic.Init

noncomputable section

namespace Cert.Proof

open Idealize.ShloMosaic Idealize.SL.Sem

/-- The kernel runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its host run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two named constants denote, at the extended reals, the values the certificate's table gives them. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl⟩

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
